-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part2 {F : FTy → Type} [FloatOps F] (main_arg8 : FVec F S100000x64 .f32) (main_v33 : IVec S_ 1) : IVec S_ 1 :=
  let main_v34 : FVec F S100000x64 .f32 := Host.absf main_arg8
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  main_v38

def fn_part1 {F : FTy → Type} [FloatOps F] (main_arg5 : FVec F S64 .f32) (main_arg6 : FVec F S128x64 .f32) (main_arg7 : FVec F S64 .f32) (main_arg8 : FVec F S100000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S128x64 .f32) (main_arg7 : FVec F S64 .f32) (main_arg8 : FVec F S100000x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S128x128 : Shape := ⟨2, ![128, 128]⟩
abbrev S1x64 : Shape := ⟨2, ![1, 64]⟩
abbrev S5000x128 : Shape := ⟨2, ![5000, 128]⟩
abbrev S5000x64 : Shape := ⟨2, ![5000, 64]⟩

abbrev nBuf : Space → Nat
  | .hbm => 96
  | .vmem => 27
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x256, .bf16⟩
  | .hbm, ⟨50, _⟩ => ⟨S256x128, .bf16⟩
  | .hbm, ⟨51, _⟩ => ⟨S100000x128, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .bf16⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .bf16⟩
  | .hbm, ⟨71, _⟩ => ⟨S128x128, .f32⟩
  | .hbm, ⟨72, _⟩ => ⟨S128x128, .bf16⟩
  | .hbm, ⟨73, _⟩ => ⟨S100000x128, .bf16⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .bf16⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S10000x128, .bf16⟩
  | .local _ .vmem, ⟨14, _⟩ => ⟨S10000x128, .bf16⟩
  | .local _ .vmem, ⟨15, _⟩ => ⟨S5000x128, .f32⟩
  | .local _ .vmem, ⟨16, _⟩ => ⟨S5000x128, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68_0 : Ref sig .tc := ⟨.hbm, 93, rfl⟩
abbrev main_v68_1 : Ref sig .tc := ⟨.hbm, 94, rfl⟩
abbrev main_v68_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem6_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  concatenates_S128x64_S128x64_S128x128_d1 : Shape.Concatenates [S128x64, S128x64] S128x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x64 : S5000x128.Slices ![0, 0] S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .bf16 = 32 ∨ (Rect.block (s := S100000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .bf16 = 32 ∨ (Rect.block (s := S100000x128) S10000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v30) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v68_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v68_1) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v68_2) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .f32⟩
  | .hbm, ⟨102, _⟩ => ⟨S1700000x1, .f32⟩
  | .hbm, ⟨103, _⟩ => ⟨S1700000x64, .f32⟩
  | .hbm, ⟨104, _⟩ => ⟨S1700000x64, .f32⟩
  | .hbm, ⟨105, _⟩ => ⟨S_, .f32⟩
  | .hbm, ⟨106, _⟩ => ⟨S100000x64, .f32⟩
  | .hbm, ⟨107, _⟩ => ⟨S1700000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with every buffer named.

  The program is four kernel regions among stretches of host operations. Its run is a fold of buffer
  contents from the launch memory: a stretch of host operations maps the contents before it to the
  contents after it, and a region replaces each of its arrays by what its write-backs leave. Here the
  run is stated once with the strongest post that fold gives: every unscoped buffer of every core ends
  at the last stage of the fold. The three result arrays and the nine arguments are read off it.
-/
import proofs.«116371_j44220983280296_2_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in the final state the three result
    arrays hold what the last region's write-backs leave, and the arguments are as launched. -/
theorem run_named : θ_run defs (onTc (τ := τ) (main (F := F))) ⟨m, fun _ => 0, ρ⟩ (fun r => ∀ c : Dev nD,
      r.2.mem ((c.tc : Thread nD τ).loc main_v68_0) = (dat3 (V9 m ρ) c).arrAt 4 cfg3.N
      ∧ r.2.mem ((c.tc : Thread nD τ).loc main_v68_1) = (dat3 (V9 m ρ) c).arrAt 5 cfg3.N
      ∧ r.2.mem ((c.tc : Thread nD τ).loc main_v68_2) = (dat3 (V9 m ρ) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v68_0 (by decide))).trans (W10_arr m ρ c 4),
       (h c _ (mem_uc main_v68_1 (by decide))).trans (W10_arr m ρ c 5),
       (h c _ (mem_uc main_v68_2 (by decide))).trans (W10_arr m ρ c 6),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Fold

end
-- ==== Proof.GraphLayers.lean ====
/-
  The graph-convolution encoder as functions of whole arrays, over the extended reals.

  The edge list `ei : [2, 1600000]` gives a source row and a target row; one self-loop per node is appended to
  each, so there are 1700000 edges. A node's degree is the number of edges that point at it; an edge's weight
  is the product of the inverse square roots of its two endpoints' degrees (zero where a degree is not
  positive). One round of aggregation takes a node-by-feature matrix `h`, reads row `h[source e]` for every
  edge, scales it by the edge's weight, and adds it into row `target e` of a zero matrix. The hidden layer is
  the rectified, biased aggregation of `x · W1`; each latent head is the biased aggregation of `hidden · W`;
  the sample is `mean + noise · exp (log standard deviation)`.

  Every definition is the composition of host operations that both programs print for it, with the same
  dimension records, so that either program's buffer contents can be compared with these terms directly. Each
  layer is given first over explicit endpoint and weight vectors, then over the edge list.
-/
import proofs.«116371_j44220983280296_2_alg».proof.Proof.Gen.ReferenceIdeal
import Idealize.ShloMosaic.PureOps.Ideal

noncomputable section

namespace Cert.GraphLayers

open Idealize.ShloMosaic Cert.ReferenceIdeal Cert.ReferenceIdeal.Facts₀ Cert.ReferenceIdeal.Facts

/-- The source endpoints: row 0 of the edge list, then one self-loop per node. -/
def sources (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The target endpoints: row 1 of the edge list, then one self-loop per node. -/
def targets (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- An index vector as an index column. -/
def column (ids : IVec S1700000 32) : IVec S1700000x1 32 :=
  broadcastInDim S1700000x1 ![0] bcast_S1700000_S1700000x1_0 ids

/-- Negative indices wrapped around by the number of nodes (python indexing), as a column. -/
def wrapped (ids : IVec S1700000 32) : IVec S1700000x1 32 :=
  column (select (cmpi .slt ids (broadcastInDim S1700000 ![] bcast_S_S1700000 (constantI S_ 32 0#32)))
    (addi ids (broadcastInDim S1700000 ![] bcast_S_S1700000 (constantI S_ 32 100000#32))) ids)

/-- The zero vector over the nodes. -/
def noDegree : FVec Ideal S100000 .f32 :=
  broadcastInDim S100000 ![] bcast_S_S100000 (constant (F := Ideal) S_ .f32 0x00000000#32)

/-- A node's degree: one for every edge that points at it. -/
def degreeOf (t : IVec S1700000 32) : FVec Ideal S100000 .f32 :=
  Host.scatterAdd (F := Ideal) scatter_S100000_S1700000x1_S1700000_n_0_0_1 noDegree (column t)
    (broadcastInDim S1700000 ![] bcast_S_S1700000 (constant (F := Ideal) S_ .f32 0x3F800000#32))

/-- Which degrees are positive. -/
def positiveOf (deg : FVec Ideal S100000 .f32) : IVec S100000 1 := cmpf (F := Ideal) .ogt deg noDegree

/-- The inverse square roots of the degrees. -/
def rootsOf (deg : FVec Ideal S100000 .f32) : FVec Ideal S100000 .f32 := Host.rsqrt (F := Ideal) deg

/-- The inverse square root where the degree is positive, the given scalar (zero) elsewhere. -/
def guardedOf (pos : IVec S100000 1) (roots : FVec Ideal S100000 .f32) (zero : FVec Ideal S_ .f32) : FVec Ideal S100000 .f32 :=
  select pos roots (broadcastInDim S100000 ![] bcast_S_S100000 (id zero))

/-- An edge's weight: the product of its endpoints' guarded inverse root degrees. -/
def weightOf (dinv : FVec Ideal S100000 .f32) (s t : IVec S1700000 32) : FVec Ideal S1700000 .f32 :=
  mulf (Host.gather gather_S100000_S1700000x1_S1700000_n_0_n_n_0_1_1 dinv (wrapped s))
    (Host.gather gather_S100000_S1700000x1_S1700000_n_0_n_n_0_1_1 dinv (wrapped t))

/-- The edge weights of an edge list. -/
def weight (ei : IVec S2x1600000 32) : FVec Ideal S1700000 .f32 :=
  weightOf (guardedOf (positiveOf (degreeOf (targets ei))) (rootsOf (degreeOf (targets ei))) (constant (F := Ideal) S_ .f32 0x00000000#32))
    (sources ei) (targets ei)

/-- One round of aggregation of a 128-column matrix `h` along given endpoints and edge weights: every edge adds
    its source row of `h`, scaled by its weight, into its target row of a zero matrix. -/
def aggregateOf (s t : IVec S1700000 32) (wv : FVec Ideal S1700000 .f32) (h : FVec Ideal S100000x128 .f32) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (column t)
    (mulf (Host.gather gather_S100000x128_S1700000x1_S1700000x128_1_0_n_n_0_1_1128 h (wrapped s))
      (broadcastInDim S1700000x128 ![0, 1] bcast_S1700000x1_S1700000x128_0_1
        (broadcastInDim S1700000x1 ![0] bcast_S1700000_S1700000x1_0 wv)))

/-- One round of aggregation of a 64-column matrix `h` along given endpoints and edge weights: every edge adds
    its source row of `h`, scaled by its weight, into its target row of a zero matrix. -/
def aggregate64Of (s t : IVec S1700000 32) (wv : FVec Ideal S1700000 .f32) (h : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (column t)
    (mulf (Host.gather gather_S100000x64_S1700000x1_S1700000x64_1_0_n_n_0_1_164 h (wrapped s))
      (broadcastInDim S1700000x64 ![0, 1] bcast_S1700000x1_S1700000x64_0_1
        (broadcastInDim S1700000x1 ![0] bcast_S1700000_S1700000x1_0 wv)))

/-- One round of aggregation of a 128-column matrix over an edge list. -/
def aggregate (ei : IVec S2x1600000 32) (h : FVec Ideal S100000x128 .f32) : FVec Ideal S100000x128 .f32 :=
  aggregateOf (sources ei) (targets ei) (weight ei) h

/-- The hidden layer over given endpoints and weights: aggregate `x · W1`, add the bias, rectify. -/
def hiddenOf (s t : IVec S1700000 32) (wv : FVec Ideal S1700000 .f32) (x : FVec Ideal S100000x256 .f32)
    (w1 : FVec Ideal S256x128 .f32) (b1 : FVec Ideal S128 .f32) (zero : FVec Ideal S_ .f32) : FVec Ideal S100000x128 .f32 :=
  maximumf
    (addf (aggregateOf s t wv (Host.dotGeneral (F := Ideal) dot_S100000x256_S256x128_S100000x128_1_0_0_1_n_n none x w1))
      (broadcastInDim S100000x128 ![0, 1] bcast_S1x128_S100000x128_0_1 (broadcastInDim S1x128 ![1] bcast_S128_S1x128_1 b1)))
    (broadcastInDim S100000x128 ![] bcast_S_S100000x128 zero)

/-- The hidden layer of the encoder. -/
def hidden (x : FVec Ideal S100000x256 .f32) (ei : IVec S2x1600000 32) (w1 : FVec Ideal S256x128 .f32)
    (b1 : FVec Ideal S128 .f32) : FVec Ideal S100000x128 .f32 :=
  hiddenOf (sources ei) (targets ei) (weight ei) x w1 b1 (constant (F := Ideal) S_ .f32 0x00000000#32)

/-- A latent head over given endpoints and weights: aggregate `hidden · W`, add the bias. -/
def latentOf (s t : IVec S1700000 32) (wv : FVec Ideal S1700000 .f32) (hid : FVec Ideal S100000x128 .f32)
    (w : FVec Ideal S128x64 .f32) (b : FVec Ideal S64 .f32) : FVec Ideal S100000x64 .f32 :=
  addf (aggregate64Of s t wv (Host.dotGeneral (F := Ideal) dot_S100000x128_S128x64_S100000x64_1_0_0_1_n_n none hid w))
    (broadcastInDim S100000x64 ![0, 1] bcast_S1x64_S100000x64_0_1 (broadcastInDim S1x64 ![1] bcast_S64_S1x64_1 b))

/-- A latent head of the encoder. -/
def latent (ei : IVec S2x1600000 32) (hid : FVec Ideal S100000x128 .f32) (w : FVec Ideal S128x64 .f32)
    (b : FVec Ideal S64 .f32) : FVec Ideal S100000x64 .f32 :=
  latentOf (sources ei) (targets ei) (weight ei) hid w b

/-- The sample: mean plus noise times the exponential of the log standard deviation. -/
def sampled (mu ls eps : FVec Ideal S100000x64 .f32) : FVec Ideal S100000x64 .f32 :=
  addf mu (mulf eps (Host.exp (F := Ideal) ls))

end Cert.GraphLayers

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.FirstProduct.lean ====
/-
  The first region, at Ideal: the features times the first layer's weights.

  The region's grid walks down the rows of `x` in ten blocks of 10000 rows; at every point the body multiplies
  the block (10000 × 256) by the whole weight matrix (256 × 128) into a zero accumulator and stores the
  block of the product. Read over the extended reals, the array the region leaves is the matrix product of
  the two arrays it was entered with, entry by entry.
-/
import proofs.«116371_j44220983280296_2_alg».proof.Proof.Gen.KernelIdeal.Frame
import Idealize.ShloMosaic.Lib.Pipeline.Value
import Idealize.ShloMosaic.Lib.ValueIdx
import Idealize.ShloMosaic.PureOps.Ideal.Laws
import proofs.«116371_j44220983280296_2_alg».proof.Proof.LibPlainMatmul

set_option maxRecDepth 16384

noncomputable section

namespace Cert.KernelIdeal.FirstProduct

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The product of a `100000 × 256` matrix with a `256 × 128` matrix, entry by entry. -/
def product (l : S100000x256.Idx → EReal) (r : S256x128.Idx → EReal) : S100000x128.Idx → EReal :=
  fun i => ∑ k : Fin 256, l (ix2 (i 0) k) * r (ix2 k (i 1))

/-- The body's stored value at entry `(p, q)` of a block: the row `p` of the left block against the column
    `q` of the right matrix; the changes of float format are the identity on extended reals. -/
theorem stored_apply (x0 : Vec Ideal S10000x256 .bf16) (x1 : Vec Ideal S256x128 .bf16) (p : Fin 10000) (q : Fin 128) :
    k0_pay1 x0 x1 (ix2 p q) = ∑ k : Fin 256, x0 (ix2 p k) * x1 (ix2 k q) := by
  have e0 : shapeCast S10000x256 x0 shapeCasts_S10000x256_S10000x256 = x0 := shapeCast_self _ _
  have e1 : shapeCast S256x128 x1 shapeCasts_S256x128_S256x128 = x1 := shapeCast_self _ _
  unfold k0_pay1
  show FloatOps.matmul dot_S10000x256_S256x128_S10000x128_1_0_0_1_n_n none (shapeCast S10000x256 x0 shapeCasts_S10000x256_S10000x256)
    (shapeCast S256x128 x1 shapeCasts_S256x128_S256x128) (constant (F := Ideal) S10000x128 .f32 0x00000000#32) (ix2 p q) = _
  rw [e0, e1]
  exact Cert.LibPlainMatmul.matmul_zero_apply dot_S10000x256_S256x128_S10000x128_1_0_0_1_n_n rfl rfl rfl rfl rfl rfl none x0 x1 p q

/-- The printed index maps over the grid: the left and the output blocks move together down the rows, one block
    per point; the right matrix is one block. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the two arrays as the region finds them. -/
theorem flushed_eq (c : Dev nD) (t : Fin cfg0.N) :
    (dat0 V c).flushed 2 t = ((cfg0.win 2).blk t).view.read (Elt Ideal) (product (V c main_v30) (V c main_v31)) := by
  show (cfg0.win 2).cut (grid0.coords t) ((dat0 V c).after 2 t) = _
  rw [after0_2]
  unfold out0_2
  rw [View.canon_unit_zero origin]
  simp only [View.ld_unit_zero (S := S10000x256) origin, View.ld_unit_zero (S := S256x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = product (V c main_v30) (V c main_v31) (((cfg0.win 2).blk t).view.emb (ix2 p q))
  refine (stored_apply (iblk0 V c 0 t) (iblk0 V c 1 t) p q).trans ?_
  unfold product
  refine Finset.sum_congr rfl fun k _ => ?_
  have hl : iblk0 V c 0 t (ix2 p k) = V c main_v30 (ix2 ((((cfg0.win 2).blk t).view.emb (ix2 p q)) 0) k) := by
    show V c main_v30 (((cfg0.win 0).blk t).view.emb (ix2 p k)) = _
    refine congrArg (V c main_v30) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * k.val = k.val; omega
  have hr : iblk0 V c 1 t (ix2 k q) = V c main_v31 (ix2 k ((((cfg0.win 2).blk t).view.emb (ix2 p q)) 1)) := by
    show V c main_v31 (((cfg0.win 1).blk t).view.emb (ix2 k q)) = _
    refine congrArg (V c main_v31) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [hl, hr]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Row `r` lies in the block of point `r / 10000`: the blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the product of the two input arrays as the region finds them. -/
theorem array_eq (c : Dev nD) : (dat0 V c).arrAt 2 cfg0.N = product (V c main_v30) (V c main_v31) :=
  (dat0 V c).arrAt_eq_of_cover 2 _ (fun t _ => flushed_eq V c t) covered

end Cert.KernelIdeal.FirstProduct

end
-- ==== Proof.SecondProduct.lean ====
/-
  The third region, at Ideal: the hidden features times the two latent weight matrices side by side.

  The region's grid walks down the rows of the hidden features in ten blocks of 10000 rows; at every point the
  body multiplies the block (10000 × 128) by the whole joined weight matrix (128 × 128) into a zero accumulator
  and stores the block of the product. Read over the extended reals, the array the region leaves is the matrix
  product of the two arrays it was entered with, entry by entry.
-/
import proofs.«116371_j44220983280296_2_alg».proof.Proof.Gen.KernelIdeal.Frame
import Idealize.ShloMosaic.Lib.Pipeline.Value
import Idealize.ShloMosaic.Lib.ValueIdx
import Idealize.ShloMosaic.PureOps.Ideal.Laws
import proofs.«116371_j44220983280296_2_alg».proof.Proof.LibPlainMatmul

set_option maxRecDepth 16384

noncomputable section

namespace Cert.KernelIdeal.SecondProduct

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The product of a `100000 × 128` matrix with a `128 × 128` matrix, entry by entry. -/
def product (l : S100000x128.Idx → EReal) (r : S128x128.Idx → EReal) : S100000x128.Idx → EReal :=
  fun i => ∑ k : Fin 128, l (ix2 (i 0) k) * r (ix2 k (i 1))

/-- The body's stored value at entry `(p, q)` of a block: the row `p` of the left block against the column
    `q` of the right matrix; the changes of float format are the identity on extended reals. -/
theorem stored_apply (x0 : Vec Ideal S10000x128 .bf16) (x1 : Vec Ideal S128x128 .bf16) (p : Fin 10000) (q : Fin 128) :
    k2_pay1 x0 x1 (ix2 p q) = ∑ k : Fin 128, x0 (ix2 p k) * x1 (ix2 k q) := by
  have e0 : shapeCast S10000x128 x0 shapeCasts_S10000x128_S10000x128 = x0 := shapeCast_self _ _
  have e1 : shapeCast S128x128 x1 shapeCasts_S128x128_S128x128 = x1 := shapeCast_self _ _
  unfold k2_pay1
  show FloatOps.matmul dot_S10000x128_S128x128_S10000x128_1_0_0_1_n_n none (shapeCast S10000x128 x0 shapeCasts_S10000x128_S10000x128)
    (shapeCast S128x128 x1 shapeCasts_S128x128_S128x128) (constant (F := Ideal) S10000x128 .f32 0x00000000#32) (ix2 p q) = _
  rw [e0, e1]
  exact Cert.LibPlainMatmul.matmul_zero_apply dot_S10000x128_S128x128_S10000x128_1_0_0_1_n_n rfl rfl rfl rfl rfl rfl none x0 x1 p q

/-- The printed index maps over the grid: the left and the output blocks move together down the rows, one block
    per point; the right matrix is one block. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product of the two arrays as the region finds them. -/
theorem flushed_eq (c : Dev nD) (t : Fin cfg2.N) :
    (dat2 V c).flushed 2 t = ((cfg2.win 2).blk t).view.read (Elt Ideal) (product (V c main_v48) (V c main_v50)) := by
  show (cfg2.win 2).cut (grid2.coords t) ((dat2 V c).after 2 t) = _
  rw [after2_2]
  unfold out2_2
  rw [View.canon_unit_zero origin]
  simp only [View.ld_unit_zero (S := S10000x128) origin, View.ld_unit_zero (S := S128x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  show k2_pay1 (iblk2 V c 0 t) (iblk2 V c 1 t) (ix2 p q) = product (V c main_v48) (V c main_v50) (((cfg2.win 2).blk t).view.emb (ix2 p q))
  refine (stored_apply (iblk2 V c 0 t) (iblk2 V c 1 t) p q).trans ?_
  unfold product
  refine Finset.sum_congr rfl fun k _ => ?_
  have hl : iblk2 V c 0 t (ix2 p k) = V c main_v48 (ix2 ((((cfg2.win 2).blk t).view.emb (ix2 p q)) 0) k) := by
    show V c main_v48 (((cfg2.win 0).blk t).view.emb (ix2 p k)) = _
    refine congrArg (V c main_v48) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have hr : iblk2 V c 1 t (ix2 k q) = V c main_v50 (ix2 k ((((cfg2.win 2).blk t).view.emb (ix2 p q)) 1)) := by
    show V c main_v50 (((cfg2.win 1).blk t).view.emb (ix2 k q)) = _
    refine congrArg (V c main_v50) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hl, hr]

/-- An index of the array is in point `t`'s block iff each coordinate is in the block's range on its axis. -/
theorem mem_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v51).slice (win2_2.rect t)).set ↔ _
  rw [View.set_slice_whole, Rect.mem_set_unit]
  exact Iff.rfl

/-- Row `r` lies in the block of point `r / 10000`: the blocks cover the array. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region: the product of the two input arrays as the region finds them. -/
theorem array_eq (c : Dev nD) : (dat2 V c).arrAt 2 cfg2.N = product (V c main_v48) (V c main_v50) :=
  (dat2 V c).arrAt_eq_of_cover 2 _ (fun t _ => flushed_eq V c t) covered

end Cert.KernelIdeal.SecondProduct

end
-- ==== Proof.BiasRelu.lean ====
/-
  The second region, at Ideal: bias and rectifier after the first aggregation.

  The region's grid walks down the rows of the aggregated features in ten blocks of 10000 rows; at every point
  the body adds the bias row to every row of the block and takes the maximum with zero. Read over the extended
  reals, entry `(r, c)` of the array the region leaves is `max (a (r, c) + b (0, c)) 0` of the two arrays it was
  entered with; the change of float format on the way out is the identity.
-/
import proofs.«116371_j44220983280296_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Bias row added to every row, then the maximum with the zero word's value. -/
def rectified (a : S100000x128.Idx → EReal) (b : S1x128.Idx → EReal) : S100000x128.Idx → EReal :=
  fun i => max (a i + b (ix2 0 (i 1))) (Ideal.ofBits .f32 0x00000000#32)

/-- The body's stored value at entry `(p, q)` of a block. -/
theorem stored_apply (x0 : Vec Ideal S10000x128 .f32) (x1 : Vec Ideal S1x128 .f32) (p : Fin 10000) (q : Fin 128) :
    k1_pay1 x0 x1 (ix2 p q) = max (x0 (ix2 p q) + x1 (ix2 0 q)) (Ideal.ofBits .f32 0x00000000#32) := by
  have e0 : shapeCast S10000x128 x0 shapeCasts_S10000x128_S10000x128 = x0 := shapeCast_self _ _
  have e1 : shapeCast S1x128 x1 shapeCasts_S1x128_S1x128 = x1 := shapeCast_self _ _
  have eb : broadcastTo S10000x128 x1 broadcasts_S1x128_S10000x128 (ix2 p q) = x1 (ix2 0 q) :=
    broadcastTo_apply x1 broadcasts_S1x128_S10000x128 (ix2 p q) (ix2 0 q) (fun a => by
      match a with
      | ⟨0, _⟩ => rfl
      | ⟨1, _⟩ => rfl)
  unfold k1_pay1
  show max (shapeCast S10000x128 x0 shapeCasts_S10000x128_S10000x128 (ix2 p q)
      + broadcastTo S10000x128 (shapeCast S1x128 x1 shapeCasts_S1x128_S1x128) broadcasts_S1x128_S10000x128 (ix2 p q))
    (Ideal.ofBits .f32 0x00000000#32) = _
  rw [e0, e1, eb]

/-- The printed index maps over the grid: the input and the output blocks move together down the rows, one block
    per point; the bias row is one block. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the rectified sum of the two arrays as the region finds them. -/
theorem flushed_eq (c : Dev nD) (t : Fin cfg1.N) :
    (dat1 V c).flushed 2 t = ((cfg1.win 2).blk t).view.read (Elt Ideal) (rectified (V c main_v46) (V c main_v47)) := by
  show (cfg1.win 2).cut (grid1.coords t) ((dat1 V c).after 2 t) = _
  rw [after1_2]
  unfold out1_2
  rw [View.canon_unit_zero origin]
  simp only [View.ld_unit_zero (S := S10000x128) origin, View.ld_unit_zero (S := S1x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q) = rectified (V c main_v46) (V c main_v47) (((cfg1.win 2).blk t).view.emb (ix2 p q))
  refine (stored_apply (iblk1 V c 0 t) (iblk1 V c 1 t) p q).trans ?_
  unfold rectified
  have hl : iblk1 V c 0 t (ix2 p q) = V c main_v46 (((cfg1.win 2).blk t).view.emb (ix2 p q)) := by
    show V c main_v46 (((cfg1.win 0).blk t).view.emb (ix2 p q)) = _
    refine congrArg (V c main_v46) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have hr : iblk1 V c 1 t (ix2 0 q) = V c main_v47 (ix2 0 ((((cfg1.win 2).blk t).view.emb (ix2 p q)) 1)) := by
    show V c main_v47 (((cfg1.win 1).blk t).view.emb (ix2 0 q)) = _
    refine congrArg (V c main_v47) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hl, hr]

/-- An index of the array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v48).slice (win1_2.rect t)).set ↔ _
  rw [View.set_slice_whole, Rect.mem_set_unit]
  exact Iff.rfl

/-- Row `r` lies in the block of point `r / 10000`: the blocks cover the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the rectified sum of the two input arrays as the region finds them. -/
theorem array_eq (c : Dev nD) : (dat1 V c).arrAt 2 cfg1.N = rectified (V c main_v46) (V c main_v47) :=
  (dat1 V c).arrAt_eq_of_cover 2 _ (fun t _ => flushed_eq V c t) covered

end Cert.KernelIdeal.BiasRelu

end
-- ==== Proof.Finalize.lean ====
/-
  The last region, at Ideal: the two biases and the sampled latent.

  The region's grid walks down the rows of the second aggregation (100000 × 128) in twenty blocks of 5000 rows.
  The low 64 columns of a row plus the first bias row are the mean; the high 64 columns plus the second bias row
  are the log standard deviation; the sample is the mean plus the noise times the exponential of the log standard
  deviation. Read over the extended reals, each of the three arrays the region leaves is that function, entry by
  entry, of the four arrays it was entered with.
-/
import proofs.«116371_j44220983280296_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Finalize

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Column `q` of the low half of a 128-wide row. -/
def lo (q : Fin 64) : Fin 128 := ⟨q.val, by omega⟩
/-- Column `q` of the high half of a 128-wide row. -/
def hi (q : Fin 64) : Fin 128 := ⟨64 + q.val, by omega⟩

/-- The mean: low half of the aggregate plus the first bias row. -/
def mean (a : S100000x128.Idx → EReal) (bm : S1x64.Idx → EReal) : S100000x64.Idx → EReal :=
  fun i => a (ix2 (i 0) (lo (i 1))) + bm (ix2 0 (i 1))

/-- The log standard deviation: high half of the aggregate plus the second bias row. -/
def logdev (a : S100000x128.Idx → EReal) (bl : S1x64.Idx → EReal) : S100000x64.Idx → EReal :=
  fun i => a (ix2 (i 0) (hi (i 1))) + bl (ix2 0 (i 1))

/-- The sample: mean plus noise times the exponential of the log standard deviation. -/
def sample (a : S100000x128.Idx → EReal) (bm bl : S1x64.Idx → EReal) (e : S100000x64.Idx → EReal) : S100000x64.Idx → EReal :=
  fun i => (a (ix2 (i 0) (lo (i 1))) + bm (ix2 0 (i 1))) + e i * Ideal.exp (a (ix2 (i 0) (hi (i 1))) + bl (ix2 0 (i 1)))

/-- The bias row broadcast down a block, at `(p, q)`. -/
theorem bias_apply (x : Vec Ideal S1x64 .f32) (p : Fin 5000) (q : Fin 64) :
    broadcastTo S5000x64 (shapeCast S1x64 x shapeCasts_S1x64_S1x64) broadcasts_S1x64_S5000x64 (ix2 p q) = x (ix2 0 q) := by
  rw [shapeCast_self]
  exact broadcastTo_apply x broadcasts_S1x64_S5000x64 (ix2 p q) (ix2 0 q) (fun a => by
    match a with
    | ⟨0, _⟩ => rfl
    | ⟨1, _⟩ => rfl)

/-- The low half of a block, at `(p, q)`. -/
theorem low_apply (x0 : Vec Ideal S5000x128 .f32) (p : Fin 5000) (q : Fin 64) :
    extractStridedSlice S5000x64 ![0, 0] (k3_pay1 x0) slices_S5000x128_o0_0_S5000x64 (ix2 p q) = x0 (ix2 p (lo q)) := by
  have e0 : k3_pay1 x0 = x0 := shapeCast_self _ _
  rw [e0]
  exact extractStridedSlice_apply ![0, 0] x0 slices_S5000x128_o0_0_S5000x64 (ix2 p q) (ix2 p (lo q)) (fun a => by
    match a with
    | ⟨0, _⟩ => show p.val = 0 + p.val; omega
    | ⟨1, _⟩ => show q.val = 0 + q.val; omega)

/-- The high half of a block, at `(p, q)`. -/
theorem high_apply (x0 : Vec Ideal S5000x128 .f32) (p : Fin 5000) (q : Fin 64) :
    extractStridedSlice S5000x64 ![0, 64] (k3_pay1 x0) slices_S5000x128_o0_64_S5000x64 (ix2 p q) = x0 (ix2 p (hi q)) := by
  have e0 : k3_pay1 x0 = x0 := shapeCast_self _ _
  rw [e0]
  exact extractStridedSlice_apply ![0, 64] x0 slices_S5000x128_o0_64_S5000x64 (ix2 p q) (ix2 p (hi q)) (fun a => by
    match a with
    | ⟨0, _⟩ => show p.val = 0 + p.val; omega
    | ⟨1, _⟩ => show 64 + q.val = 64 + q.val; rfl)

/-- The body's stored mean at entry `(p, q)` of a block. -/
theorem mean_stored (x0 : Vec Ideal S5000x128 .f32) (x1 : Vec Ideal S1x64 .f32) (p : Fin 5000) (q : Fin 64) :
    k3_pay2 x0 x1 (ix2 p q) = x0 (ix2 p (lo q)) + x1 (ix2 0 q) := by
  unfold k3_pay2
  show extractStridedSlice S5000x64 ![0, 0] (k3_pay1 x0) slices_S5000x128_o0_0_S5000x64 (ix2 p q)
    + broadcastTo S5000x64 (shapeCast S1x64 x1 shapeCasts_S1x64_S1x64) broadcasts_S1x64_S5000x64 (ix2 p q) = _
  rw [low_apply, bias_apply]

/-- The body's stored log standard deviation at entry `(p, q)` of a block. -/
theorem logdev_stored (x0 : Vec Ideal S5000x128 .f32) (x2 : Vec Ideal S1x64 .f32) (p : Fin 5000) (q : Fin 64) :
    k3_pay3 x0 x2 (ix2 p q) = x0 (ix2 p (hi q)) + x2 (ix2 0 q) := by
  unfold k3_pay3
  show extractStridedSlice S5000x64 ![0, 64] (k3_pay1 x0) slices_S5000x128_o0_64_S5000x64 (ix2 p q)
    + broadcastTo S5000x64 (shapeCast S1x64 x2 shapeCasts_S1x64_S1x64) broadcasts_S1x64_S5000x64 (ix2 p q) = _
  rw [high_apply, bias_apply]

/-- The body's stored sample at entry `(p, q)` of a block. -/
theorem sample_stored (x0 : Vec Ideal S5000x128 .f32) (x1 x2 : Vec Ideal S1x64 .f32) (x3 : Vec Ideal S5000x64 .f32)
    (p : Fin 5000) (q : Fin 64) :
    k3_pay4 x0 x1 x2 x3 (ix2 p q)
      = (x0 (ix2 p (lo q)) + x1 (ix2 0 q)) + x3 (ix2 p q) * Ideal.exp (x0 (ix2 p (hi q)) + x2 (ix2 0 q)) := by
  unfold k3_pay4
  show k3_pay2 x0 x1 (ix2 p q) + x3 (ix2 p q) * Ideal.exp (k3_pay3 x0 x2 (ix2 p q)) = _
  rw [mean_stored, logdev_stored]

/-- The printed index maps over the grid: the aggregate, the noise and the three output blocks move together down
    the rows, one block per point; each bias row is one block. -/
theorem index_facts : ∀ t : Fin cfg3.N, win3_0.index t (0 : Fin 2) = win3_4.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_4.index t (0 : Fin 2) ∧ win3_3.index t (1 : Fin 2) = 0
    ∧ win3_4.index t (1 : Fin 2) = 0
    ∧ win3_5.index t (0 : Fin 2) = win3_4.index t (0 : Fin 2) ∧ win3_5.index t (1 : Fin 2) = 0
    ∧ win3_6.index t (0 : Fin 2) = win3_4.index t (0 : Fin 2) ∧ win3_6.index t (1 : Fin 2) = 0
    ∧ win3_4.index t (0 : Fin 2) ≤ 19 :=
  (by decide +kernel : ∀ t : Fin grid3.N, _)

/-! ## Window 5: the mean -/

/-- Every block of rows is some point's. -/
theorem index_onto5 : ∀ q0 : Fin 20, ∃ t : Fin cfg3.N, win3_5.index t = ![q0.val, 0] :=
  (by decide +kernel : ∀ q0 : Fin 20, ∃ t : Fin grid3.N, win3_5.index t = ![q0.val, 0])

/-- What point `t` writes back into window 5 is block `t` of the mean of the arrays as the region finds them. -/
theorem flushed5_eq (c : Dev nD) (t : Fin cfg3.N) :
    (dat3 V c).flushed 5 t = ((cfg3.win 5).blk t).view.read (Elt Ideal) (mean (V c main_v65) (V c main_v66)) := by
  show (cfg3.win 5).cut (grid3.coords t) ((dat3 V c).after 5 t) = _
  rw [after3_5]
  unfold out3_5
  rw [View.canon_unit_zero origin]
  simp only [View.ld_unit_zero (S := S5000x128) origin, View.ld_unit_zero (S := S1x64) origin, View.ld_unit_zero (S := S5000x64) origin]
  obtain ⟨f0, f1, f2, f3, f4, f5, f6, f7, f8, f9, f10, f11, f12, f13⟩ := index_facts t
  funext j
  obtain ⟨p, q, rfl⟩ : ∃ (p : Fin 5000) (q : Fin 64), j = ix2 p q := ⟨j 0, j 1, eq_ix2 j⟩
  show k3_pay2 (iblk3 V c 0 t) (iblk3 V c 1 t) (ix2 p q) = (mean (V c main_v65) (V c main_v66)) (((cfg3.win 5).blk t).view.emb (ix2 p q))
  refine (mean_stored (iblk3 V c 0 t) (iblk3 V c 1 t) p q).trans ?_
  unfold mean
  have hlo : iblk3 V c 0 t (ix2 p (lo q)) = V c main_v65 (ix2 ((((cfg3.win 5).blk t).view.emb (ix2 p q)) 0) (lo ((((cfg3.win 5).blk t).view.emb (ix2 p q)) 1))) := by
    show V c main_v65 (((cfg3.win 0).blk t).view.emb (ix2 p (lo q))) = _
    refine congrArg (V c main_v65) (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * q.val = win3_5.index t (1 : Fin 2) * 64 + 1 * q.val; omega
  have hbm : iblk3 V c 1 t (ix2 0 q) = V c main_v66 (ix2 0 ((((cfg3.win 5).blk t).view.emb (ix2 p q)) 1)) := by
    show V c main_v66 (((cfg3.win 1).blk t).view.emb (ix2 0 q)) = _
    refine congrArg (V c main_v66) (funext fun a => Fin.ext ?_)
    match a with
    | ⟨0, _⟩ => show win3_1.index t (0 : Fin 2) * 1 + 1 * 0 = 0; omega
    | ⟨1, _⟩ => show win3_1.index t (1 : Fin 2) * 64 + 1 * q.val = win3_5.index t (1 : Fin 2) * 64 + 1 * q.val; omega
  rw [hlo, hbm]

/-- An index of the array is in point `t`'s block iff each coordinate is in the block's range on its axis. -/
theorem mem_block5 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v68_1).slice (win3_5.rect t)).set ↔ _
  rw [View.set_slice_whole, Rect.mem_set_unit]
  exact Iff.rfl

/-- Row `r` lies in the block of point `r / 5000`: the blocks cover the array. -/
theorem covered5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := index_onto5 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The array of window 5 after the region. -/
theorem array5_eq (c : Dev nD) : (dat3 V c).arrAt 5 cfg3.N = mean (V c main_v65) (V c main_v66) :=
  (dat3 V c).arrAt_eq_of_cover 5 _ (fun t _ => flushed5_eq V c t) covered5

/-! ## Window 6: the log standard deviation -/

/-- Every block of rows is some point's. -/
theorem index_onto6 : ∀ q0 : Fin 20, ∃ t : Fin cfg3.N, win3_6.index t = ![q0.val, 0] :=
  (by decide +kernel : ∀ q0 : Fin 20, ∃ t : Fin grid3.N, win3_6.index t = ![q0.val, 0])

/-- What point `t` writes back into window 6 is block `t` of the log standard deviation of the arrays as the region finds them. -/
theorem flushed6_eq (c : Dev nD) (t : Fin cfg3.N) :
    (dat3 V c).flushed 6 t = ((cfg3.win 6).blk t).view.read (Elt Ideal) (logdev (V c main_v65) (V c main_v67)) := by
  show (cfg3.win 6).cut (grid3.coords t) ((dat3 V c).after 6 t) = _
  rw [after3_6]
  unfold out3_6
  rw [View.canon_unit_zero origin]
  simp only [View.ld_unit_zero (S := S5000x128) origin, View.ld_unit_zero (S := S1x64) origin, View.ld_unit_zero (S := S5000x64) origin]
  obtain ⟨f0, f1, f2, f3, f4, f5, f6, f7, f8, f9, f10, f11, f12, f13⟩ := index_facts t
  funext j
  obtain ⟨p, q, rfl⟩ : ∃ (p : Fin 5000) (q : Fin 64), j = ix2 p q := ⟨j 0, j 1, eq_ix2 j⟩
  show k3_pay3 (iblk3 V c 0 t) (iblk3 V c 2 t) (ix2 p q) = (logdev (V c main_v65) (V c main_v67)) (((cfg3.win 6).blk t).view.emb (ix2 p q))
  refine (logdev_stored (iblk3 V c 0 t) (iblk3 V c 2 t) p q).trans ?_
  unfold logdev
  have hhi : iblk3 V c 0 t (ix2 p (hi q)) = V c main_v65 (ix2 ((((cfg3.win 6).blk t).view.emb (ix2 p q)) 0) (hi ((((cfg3.win 6).blk t).view.emb (ix2 p q)) 1))) := by
    show V c main_v65 (((cfg3.win 0).blk t).view.emb (ix2 p (hi q))) = _
    refine congrArg (V c main_v65) (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * (64 + q.val) = 64 + (win3_6.index t (1 : Fin 2) * 64 + 1 * q.val); omega
  have hbl : iblk3 V c 2 t (ix2 0 q) = V c main_v67 (ix2 0 ((((cfg3.win 6).blk t).view.emb (ix2 p q)) 1)) := by
    show V c main_v67 (((cfg3.win 2).blk t).view.emb (ix2 0 q)) = _
    refine congrArg (V c main_v67) (funext fun a => Fin.ext ?_)
    match a with
    | ⟨0, _⟩ => show win3_2.index t (0 : Fin 2) * 1 + 1 * 0 = 0; omega
    | ⟨1, _⟩ => show win3_2.index t (1 : Fin 2) * 64 + 1 * q.val = win3_6.index t (1 : Fin 2) * 64 + 1 * q.val; omega
  rw [hhi, hbl]

/-- An index of the array is in point `t`'s block iff each coordinate is in the block's range on its axis. -/
theorem mem_block6 (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v68_2).slice (win3_6.rect t)).set ↔ _
  rw [View.set_slice_whole, Rect.mem_set_unit]
  exact Iff.rfl

/-- Row `r` lies in the block of point `r / 5000`: the blocks cover the array. -/
theorem covered6 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := index_onto6 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_block6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The array of window 6 after the region. -/
theorem array6_eq (c : Dev nD) : (dat3 V c).arrAt 6 cfg3.N = logdev (V c main_v65) (V c main_v67) :=
  (dat3 V c).arrAt_eq_of_cover 6 _ (fun t _ => flushed6_eq V c t) covered6

/-! ## Window 4: the sample -/

/-- Every block of rows is some point's. -/
theorem index_onto4 : ∀ q0 : Fin 20, ∃ t : Fin cfg3.N, win3_4.index t = ![q0.val, 0] :=
  (by decide +kernel : ∀ q0 : Fin 20, ∃ t : Fin grid3.N, win3_4.index t = ![q0.val, 0])

set_option maxHeartbeats 2000000 in
/-- What point `t` writes back into window 4 is block `t` of the sample of the arrays as the region finds them. -/
theorem flushed4_eq (c : Dev nD) (t : Fin cfg3.N) :
    (dat3 V c).flushed 4 t = ((cfg3.win 4).blk t).view.read (Elt Ideal) (sample (V c main_v65) (V c main_v66) (V c main_v67) (V c main_arg8)) := by
  show (cfg3.win 4).cut (grid3.coords t) ((dat3 V c).after 4 t) = _
  rw [after3_4]
  unfold out3_4
  rw [View.canon_unit_zero origin]
  simp only [View.ld_unit_zero (S := S5000x128) origin, View.ld_unit_zero (S := S1x64) origin, View.ld_unit_zero (S := S5000x64) origin]
  obtain ⟨f0, f1, f2, f3, f4, f5, f6, f7, f8, f9, f10, f11, f12, f13⟩ := index_facts t
  funext j
  obtain ⟨p, q, rfl⟩ : ∃ (p : Fin 5000) (q : Fin 64), j = ix2 p q := ⟨j 0, j 1, eq_ix2 j⟩
  show k3_pay4 (iblk3 V c 0 t) (iblk3 V c 1 t) (iblk3 V c 2 t) (iblk3 V c 3 t) (ix2 p q) = (sample (V c main_v65) (V c main_v66) (V c main_v67) (V c main_arg8)) (((cfg3.win 4).blk t).view.emb (ix2 p q))
  refine (sample_stored (iblk3 V c 0 t) (iblk3 V c 1 t) (iblk3 V c 2 t) (iblk3 V c 3 t) p q).trans ?_
  unfold sample
  have hlo : iblk3 V c 0 t (ix2 p (lo q)) = V c main_v65 (ix2 ((((cfg3.win 4).blk t).view.emb (ix2 p q)) 0) (lo ((((cfg3.win 4).blk t).view.emb (ix2 p q)) 1))) := by
    show V c main_v65 (((cfg3.win 0).blk t).view.emb (ix2 p (lo q))) = _
    refine congrArg (V c main_v65) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 64 + 1 * q.val; omega
  have hhi : iblk3 V c 0 t (ix2 p (hi q)) = V c main_v65 (ix2 ((((cfg3.win 4).blk t).view.emb (ix2 p q)) 0) (hi ((((cfg3.win 4).blk t).view.emb (ix2 p q)) 1))) := by
    show V c main_v65 (((cfg3.win 0).blk t).view.emb (ix2 p (hi q))) = _
    refine congrArg (V c main_v65) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * (64 + q.val) = 64 + (win3_4.index t (1 : Fin 2) * 64 + 1 * q.val); omega
  have hbm : iblk3 V c 1 t (ix2 0 q) = V c main_v66 (ix2 0 ((((cfg3.win 4).blk t).view.emb (ix2 p q)) 1)) := by
    show V c main_v66 (((cfg3.win 1).blk t).view.emb (ix2 0 q)) = _
    refine congrArg (V c main_v66) (funext fun a => Fin.ext ?_)
    match a with
    | ⟨0, _⟩ => show win3_1.index t (0 : Fin 2) * 1 + 1 * 0 = 0; omega
    | ⟨1, _⟩ => show win3_1.index t (1 : Fin 2) * 64 + 1 * q.val = win3_4.index t (1 : Fin 2) * 64 + 1 * q.val; omega
  have hbl : iblk3 V c 2 t (ix2 0 q) = V c main_v67 (ix2 0 ((((cfg3.win 4).blk t).view.emb (ix2 p q)) 1)) := by
    show V c main_v67 (((cfg3.win 2).blk t).view.emb (ix2 0 q)) = _
    refine congrArg (V c main_v67) (funext fun a => Fin.ext ?_)
    match a with
    | ⟨0, _⟩ => show win3_2.index t (0 : Fin 2) * 1 + 1 * 0 = 0; omega
    | ⟨1, _⟩ => show win3_2.index t (1 : Fin 2) * 64 + 1 * q.val = win3_4.index t (1 : Fin 2) * 64 + 1 * q.val; omega
  have hep : iblk3 V c 3 t (ix2 p q) = V c main_arg8 ((((cfg3.win 4).blk t).view.emb (ix2 p q))) := by
    show V c main_arg8 (((cfg3.win 3).blk t).view.emb (ix2 p q)) = _
    refine congrArg (V c main_arg8) (funext fun a => Fin.ext ?_)
    match a with
    | ⟨0, _⟩ => show win3_3.index t (0 : Fin 2) * 5000 + 1 * p.val = win3_4.index t (0 : Fin 2) * 5000 + 1 * p.val; omega
    | ⟨1, _⟩ => show win3_3.index t (1 : Fin 2) * 64 + 1 * q.val = win3_4.index t (1 : Fin 2) * 64 + 1 * q.val; omega
  rw [hlo, hhi, hbm, hbl, hep]

/-- An index of the array is in point `t`'s block iff each coordinate is in the block's range on its axis. -/
theorem mem_block4 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v68_0).slice (win3_4.rect t)).set ↔ _
  rw [View.set_slice_whole, Rect.mem_set_unit]
  exact Iff.rfl

/-- Row `r` lies in the block of point `r / 5000`: the blocks cover the array. -/
theorem covered4 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := index_onto4 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_block4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The array of window 4 after the region. -/
theorem array4_eq (c : Dev nD) : (dat3 V c).arrAt 4 cfg3.N = sample (V c main_v65) (V c main_v66) (V c main_v67) (V c main_arg8) :=
  (dat3 V c).arrAt_eq_of_cover 4 _ (fun t _ => flushed4_eq V c t) covered4

end Cert.KernelIdeal.Finalize

end
-- ==== Proof.KernelLayers.lean ====
/-
  The idealized kernel's layers as functions of whole arrays.

  The kernel computes the hidden layer as the reference does, up to the order of operations inside each
  step: the product `x · W1` block by block, one aggregation over the graph, then bias and rectifier block by
  block. For the two latent heads it joins the two weight matrices side by side into one `128 × 128` matrix,
  multiplies the hidden layer by it once, and aggregates the 128-column product once; the heads are then the
  low and the high 64 columns of that aggregation plus their biases.
-/
import proofs.«116371_j44220983280296_2_alg».proof.Proof.GraphLayers
import proofs.«116371_j44220983280296_2_alg».proof.Proof.FirstProduct
import proofs.«116371_j44220983280296_2_alg».proof.Proof.SecondProduct
import proofs.«116371_j44220983280296_2_alg».proof.Proof.BiasRelu
import proofs.«116371_j44220983280296_2_alg».proof.Proof.Finalize

noncomputable section

namespace Cert.KernelIdeal.Layers

open Idealize.ShloMosaic Cert.KernelIdeal Cert.KernelIdeal.Facts₀ Cert.KernelIdeal.Facts

/-- The kernel's hidden layer. -/
def hiddenOf (x : S100000x256.Idx → EReal) (ei : IVec S2x1600000 32) (w1 : S256x128.Idx → EReal)
    (b1 : S128.Idx → EReal) : S100000x128.Idx → EReal :=
  BiasRelu.rectified (GraphLayers.aggregate ei (FirstProduct.product x w1)) (shapeCast S1x128 b1 shapeCasts_S128_S1x128)

/-- The two latent weight matrices side by side. -/
def joinedOf (wmu wls : S128x64.Idx → EReal) : S128x128.Idx → EReal :=
  concatenate S128x128 1 [⟨S128x64, wmu⟩, ⟨S128x64, wls⟩] concatenates_S128x64_S128x64_S128x128_d1

/-- The kernel's second aggregation: of the hidden layer times the joined weights. -/
def secondOf (x : S100000x256.Idx → EReal) (ei : IVec S2x1600000 32) (w1 : S256x128.Idx → EReal)
    (b1 : S128.Idx → EReal) (wmu wls : S128x64.Idx → EReal) : S100000x128.Idx → EReal :=
  GraphLayers.aggregate ei (SecondProduct.product (hiddenOf x ei w1 b1) (joinedOf wmu wls))

end Cert.KernelIdeal.Layers

end
-- ==== Proof.KernelStages.lean ====
/-
  The idealized kernel's buffers at each boundary of its run, as functions of the arguments.

  The run folds the buffer contents through six stretches of host operations and four regions. Each stretch is
  read once, from an arbitrary incoming valuation, as the layer it computes. The edge endpoints and the edge
  weights are computed before the first region and never written again, so they are carried unchanged to every
  later boundary; an argument is never written at all. Between two regions the host operations aggregate the
  previous region's output over the graph, and each region turns the arrays it is entered with into its output
  by the law proved for it. Composing these gives the three result arrays as the mean, the log standard
  deviation and the sample of one aggregation of the hidden layer times the two latent weight matrices side by
  side.
-/
import proofs.«116371_j44220983280296_2_alg».proof.Proof.Gen.KernelIdeal.Frame
import proofs.«116371_j44220983280296_2_alg».proof.Proof.KernelLayers
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.GraphLayers

/-! ## Each stretch of host operations, read from an arbitrary incoming valuation -/

set_option maxHeartbeats 4000000 in
/-- The first stretch leaves the source endpoints of the edge list it finds. -/
theorem read0_sources (F0 : Valuation τ sig (Elt Ideal)) :
    StableHlo.after hostOps0 F0 (Proc.devRef .tc main_v3) = sources (F0 (Proc.devRef .tc main_arg1)) := by
  after_results_simp
  rfl

set_option maxHeartbeats 4000000 in
/-- The first stretch leaves the target endpoints of the edge list it finds. -/
theorem read0_targets (F0 : Valuation τ sig (Elt Ideal)) :
    StableHlo.after hostOps0 F0 (Proc.devRef .tc main_v6) = targets (F0 (Proc.devRef .tc main_arg1)) := by
  after_results_simp
  rfl

set_option maxHeartbeats 4000000 in
/-- The first stretch leaves which degrees are positive. -/
theorem read0_positive (F0 : Valuation τ sig (Elt Ideal)) :
    StableHlo.after hostOps0 F0 (Proc.devRef .tc main_v12) = positiveOf (degreeOf (targets (F0 (Proc.devRef .tc main_arg1)))) := by
  after_results_simp
  rfl

set_option maxHeartbeats 4000000 in
/-- The first stretch leaves the inverse square roots of the degrees. -/
theorem read0_roots (F0 : Valuation τ sig (Elt Ideal)) :
    StableHlo.after hostOps0 F0 (Proc.devRef .tc main_v13) = rootsOf (degreeOf (targets (F0 (Proc.devRef .tc main_arg1)))) := by
  after_results_simp
  rfl

set_option maxHeartbeats 4000000 in
/-- The first stretch leaves the zero scalar. -/
theorem read0_zero (F0 : Valuation τ sig (Elt Ideal)) :
    StableHlo.after hostOps0 F0 (Proc.devRef .tc main_cst_2) = constant (F := Ideal) S_ .f32 0x00000000#32 := by
  after_results_simp

set_option maxHeartbeats 4000000 in
/-- The called selection leaves the guarded inverse roots of what it finds. -/
theorem read01_guarded (F1 : Valuation τ sig (Elt Ideal)) :
    StableHlo.after hostOps0_1 F1 (Proc.devRef .tc main_v14) = guardedOf (F1 (Proc.devRef .tc main_v12)) (F1 (Proc.devRef .tc main_v13)) (F1 (Proc.devRef .tc main_cst_2)) := by
  after_results_simp
  rfl

/-- The called selection does not write the source endpoints. -/
theorem keep01_sources (F1 : Valuation τ sig (Elt Ideal)) :
    StableHlo.after hostOps0_1 F1 (Proc.devRef .tc main_v3) = F1 (Proc.devRef .tc main_v3) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The called selection does not write the target endpoints. -/
theorem keep01_targets (F1 : Valuation τ sig (Elt Ideal)) :
    StableHlo.after hostOps0_1 F1 (Proc.devRef .tc main_v6) = F1 (Proc.devRef .tc main_v6) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
/-- The third stretch leaves the edge weights of the endpoints and guarded roots it finds. -/
theorem read02_weight (F2 : Valuation τ sig (Elt Ideal)) :
    StableHlo.after hostOps0_2 F2 (Proc.devRef .tc main_v29) = weightOf (F2 (Proc.devRef .tc main_v14)) (F2 (Proc.devRef .tc main_v3)) (F2 (Proc.devRef .tc main_v6)) := by
  after_results_simp
  rfl

set_option maxHeartbeats 4000000 in
/-- The third stretch leaves the features, their float format changed: the identity on extended reals. -/
theorem read02_features (F2 : Valuation τ sig (Elt Ideal)) :
    StableHlo.after hostOps0_2 F2 (Proc.devRef .tc main_v30) = F2 (Proc.devRef .tc main_arg0) := by
  after_results_simp
  rfl

set_option maxHeartbeats 4000000 in
/-- The third stretch leaves the first weights, their float format changed: the identity on extended reals. -/
theorem read02_weights1 (F2 : Valuation τ sig (Elt Ideal)) :
    StableHlo.after hostOps0_2 F2 (Proc.devRef .tc main_v31) = F2 (Proc.devRef .tc main_arg2) := by
  after_results_simp
  rfl

/-- The third stretch does not write the source endpoints. -/
theorem keep02_sources (F2 : Valuation τ sig (Elt Ideal)) :
    StableHlo.after hostOps0_2 F2 (Proc.devRef .tc main_v3) = F2 (Proc.devRef .tc main_v3) :=
  StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The third stretch does not write the target endpoints. -/
theorem keep02_targets (F2 : Valuation τ sig (Elt Ideal)) :
    StableHlo.after hostOps0_2 F2 (Proc.devRef .tc main_v6) = F2 (Proc.devRef .tc main_v6) :=
  StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
/-- The stretch after the first region aggregates the region's output along the endpoints and weights it finds. -/
theorem read1_aggregate (F4 : Valuation τ sig (Elt Ideal)) :
    StableHlo.after hostOps1 F4 (Proc.devRef .tc main_v46) = aggregateOf (F4 (Proc.devRef .tc main_v3)) (F4 (Proc.devRef .tc main_v6)) (F4 (Proc.devRef .tc main_v29)) (F4 (Proc.devRef .tc main_v32)) := by
  after_results_simp
  rfl

set_option maxHeartbeats 4000000 in
/-- The stretch after the first region lays the first bias out as a row. -/
theorem read1_bias (F4 : Valuation τ sig (Elt Ideal)) :
    StableHlo.after hostOps1 F4 (Proc.devRef .tc main_v47) = shapeCast S1x128 (F4 (Proc.devRef .tc main_arg3)) shapeCasts_S128_S1x128 := by
  after_results_simp
  rfl

set_option maxHeartbeats 4000000 in
/-- The stretch after the second region joins the two latent weight matrices side by side. -/
theorem read2_joined (F6 : Valuation τ sig (Elt Ideal)) :
    StableHlo.after hostOps2 F6 (Proc.devRef .tc main_v50) = Layers.joinedOf (F6 (Proc.devRef .tc main_arg4)) (F6 (Proc.devRef .tc main_arg6)) := by
  after_results_simp
  rfl

/-- The stretch after the second region does not write the hidden layer. -/
theorem keep2_hidden (F6 : Valuation τ sig (Elt Ideal)) :
    StableHlo.after hostOps2 F6 (Proc.devRef .tc main_v48) = F6 (Proc.devRef .tc main_v48) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
/-- The stretch after the third region aggregates the region's output along the endpoints and weights it finds. -/
theorem read3_aggregate (F8 : Valuation τ sig (Elt Ideal)) :
    StableHlo.after hostOps3 F8 (Proc.devRef .tc main_v65) = aggregateOf (F8 (Proc.devRef .tc main_v3)) (F8 (Proc.devRef .tc main_v6)) (F8 (Proc.devRef .tc main_v29)) (F8 (Proc.devRef .tc main_v51)) := by
  after_results_simp
  rfl

set_option maxHeartbeats 4000000 in
/-- The stretch after the third region lays the mean's bias out as a row. -/
theorem read3_bias_mean (F8 : Valuation τ sig (Elt Ideal)) :
    StableHlo.after hostOps3 F8 (Proc.devRef .tc main_v66) = shapeCast S1x64 (F8 (Proc.devRef .tc main_arg5)) shapeCasts_S64_S1x64 := by
  after_results_simp
  rfl

set_option maxHeartbeats 4000000 in
/-- The stretch after the third region lays the log standard deviation's bias out as a row. -/
theorem read3_bias_logdev (F8 : Valuation τ sig (Elt Ideal)) :
    StableHlo.after hostOps3 F8 (Proc.devRef .tc main_v67) = shapeCast S1x64 (F8 (Proc.devRef .tc main_arg7)) shapeCasts_S64_S1x64 := by
  after_results_simp
  rfl

/-- The stretch after the third region does not write the noise. -/
theorem keep3_noise (F8 : Valuation τ sig (Elt Ideal)) :
    StableHlo.after hostOps3 F8 (Proc.devRef .tc main_arg8) = F8 (Proc.devRef .tc main_arg8) :=
  StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

variable (m : (ℓ : Loc nD τ sig) → Buf (Elt Ideal) ℓ) (ρ : Dev nD → PrngReg) (c : Dev nD)

/-! ## What is carried along the fold -/

/-- The source endpoints are untouched by the first region. -/
theorem carried4_sources : W4 m ρ c (Proc.devRef .tc main_v3) = W3 m ρ c (Proc.devRef .tc main_v3) :=
  W4_of_ne m ρ c main_v3 (by decide)

/-- The target endpoints are untouched by the first region. -/
theorem carried4_targets : W4 m ρ c (Proc.devRef .tc main_v6) = W3 m ρ c (Proc.devRef .tc main_v6) :=
  W4_of_ne m ρ c main_v6 (by decide)

/-- The edge weights are untouched by the first region. -/
theorem carried4_weight : W4 m ρ c (Proc.devRef .tc main_v29) = W3 m ρ c (Proc.devRef .tc main_v29) :=
  W4_of_ne m ρ c main_v29 (by decide)

/-- The source endpoints are untouched up to the third region's exit. -/
theorem carried8_sources : W8 m ρ c (Proc.devRef .tc main_v3) = W3 m ρ c (Proc.devRef .tc main_v3) :=
  (W8_of_ne m ρ c main_v3 (by decide)).trans <|
  ((show W7 m ρ c (Proc.devRef .tc main_v3) = W6 m ρ c (Proc.devRef .tc main_v3) from StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W6_of_ne m ρ c main_v3 (by decide)).trans <|
  ((show W5 m ρ c (Proc.devRef .tc main_v3) = W4 m ρ c (Proc.devRef .tc main_v3) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  W4_of_ne m ρ c main_v3 (by decide)

/-- The target endpoints are untouched up to the third region's exit. -/
theorem carried8_targets : W8 m ρ c (Proc.devRef .tc main_v6) = W3 m ρ c (Proc.devRef .tc main_v6) :=
  (W8_of_ne m ρ c main_v6 (by decide)).trans <|
  ((show W7 m ρ c (Proc.devRef .tc main_v6) = W6 m ρ c (Proc.devRef .tc main_v6) from StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W6_of_ne m ρ c main_v6 (by decide)).trans <|
  ((show W5 m ρ c (Proc.devRef .tc main_v6) = W4 m ρ c (Proc.devRef .tc main_v6) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  W4_of_ne m ρ c main_v6 (by decide)

/-- The edge weights are untouched up to the third region's exit. -/
theorem carried8_weight : W8 m ρ c (Proc.devRef .tc main_v29) = W3 m ρ c (Proc.devRef .tc main_v29) :=
  (W8_of_ne m ρ c main_v29 (by decide)).trans <|
  ((show W7 m ρ c (Proc.devRef .tc main_v29) = W6 m ρ c (Proc.devRef .tc main_v29) from StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W6_of_ne m ρ c main_v29 (by decide)).trans <|
  ((show W5 m ρ c (Proc.devRef .tc main_v29) = W4 m ρ c (Proc.devRef .tc main_v29) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  W4_of_ne m ρ c main_v29 (by decide)

/-- Argument 3 is untouched up to boundary 4 of the fold. -/
theorem arg3_at4 : W4 m ρ c (Proc.devRef .tc main_arg3) = W0 m ρ c (Proc.devRef .tc main_arg3) :=
  (W4_of_ne m ρ c main_arg3 (by decide)).trans <|
  ((show W3 m ρ c (Proc.devRef .tc main_arg3) = W2 m ρ c (Proc.devRef .tc main_arg3) from StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  ((show W2 m ρ c (Proc.devRef .tc main_arg3) = W1 m ρ c (Proc.devRef .tc main_arg3) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (show W1 m ρ c (Proc.devRef .tc main_arg3) = W0 m ρ c (Proc.devRef .tc main_arg3) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Argument 4 is untouched up to boundary 6 of the fold. -/
theorem arg4_at6 : W6 m ρ c (Proc.devRef .tc main_arg4) = W0 m ρ c (Proc.devRef .tc main_arg4) :=
  (W6_of_ne m ρ c main_arg4 (by decide)).trans <|
  ((show W5 m ρ c (Proc.devRef .tc main_arg4) = W4 m ρ c (Proc.devRef .tc main_arg4) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W4_of_ne m ρ c main_arg4 (by decide)).trans <|
  ((show W3 m ρ c (Proc.devRef .tc main_arg4) = W2 m ρ c (Proc.devRef .tc main_arg4) from StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  ((show W2 m ρ c (Proc.devRef .tc main_arg4) = W1 m ρ c (Proc.devRef .tc main_arg4) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (show W1 m ρ c (Proc.devRef .tc main_arg4) = W0 m ρ c (Proc.devRef .tc main_arg4) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Argument 6 is untouched up to boundary 6 of the fold. -/
theorem arg6_at6 : W6 m ρ c (Proc.devRef .tc main_arg6) = W0 m ρ c (Proc.devRef .tc main_arg6) :=
  (W6_of_ne m ρ c main_arg6 (by decide)).trans <|
  ((show W5 m ρ c (Proc.devRef .tc main_arg6) = W4 m ρ c (Proc.devRef .tc main_arg6) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W4_of_ne m ρ c main_arg6 (by decide)).trans <|
  ((show W3 m ρ c (Proc.devRef .tc main_arg6) = W2 m ρ c (Proc.devRef .tc main_arg6) from StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  ((show W2 m ρ c (Proc.devRef .tc main_arg6) = W1 m ρ c (Proc.devRef .tc main_arg6) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (show W1 m ρ c (Proc.devRef .tc main_arg6) = W0 m ρ c (Proc.devRef .tc main_arg6) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Argument 5 is untouched up to boundary 8 of the fold. -/
theorem arg5_at8 : W8 m ρ c (Proc.devRef .tc main_arg5) = W0 m ρ c (Proc.devRef .tc main_arg5) :=
  (W8_of_ne m ρ c main_arg5 (by decide)).trans <|
  ((show W7 m ρ c (Proc.devRef .tc main_arg5) = W6 m ρ c (Proc.devRef .tc main_arg5) from StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W6_of_ne m ρ c main_arg5 (by decide)).trans <|
  ((show W5 m ρ c (Proc.devRef .tc main_arg5) = W4 m ρ c (Proc.devRef .tc main_arg5) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W4_of_ne m ρ c main_arg5 (by decide)).trans <|
  ((show W3 m ρ c (Proc.devRef .tc main_arg5) = W2 m ρ c (Proc.devRef .tc main_arg5) from StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  ((show W2 m ρ c (Proc.devRef .tc main_arg5) = W1 m ρ c (Proc.devRef .tc main_arg5) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (show W1 m ρ c (Proc.devRef .tc main_arg5) = W0 m ρ c (Proc.devRef .tc main_arg5) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Argument 7 is untouched up to boundary 8 of the fold. -/
theorem arg7_at8 : W8 m ρ c (Proc.devRef .tc main_arg7) = W0 m ρ c (Proc.devRef .tc main_arg7) :=
  (W8_of_ne m ρ c main_arg7 (by decide)).trans <|
  ((show W7 m ρ c (Proc.devRef .tc main_arg7) = W6 m ρ c (Proc.devRef .tc main_arg7) from StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W6_of_ne m ρ c main_arg7 (by decide)).trans <|
  ((show W5 m ρ c (Proc.devRef .tc main_arg7) = W4 m ρ c (Proc.devRef .tc main_arg7) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W4_of_ne m ρ c main_arg7 (by decide)).trans <|
  ((show W3 m ρ c (Proc.devRef .tc main_arg7) = W2 m ρ c (Proc.devRef .tc main_arg7) from StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  ((show W2 m ρ c (Proc.devRef .tc main_arg7) = W1 m ρ c (Proc.devRef .tc main_arg7) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (show W1 m ρ c (Proc.devRef .tc main_arg7) = W0 m ρ c (Proc.devRef .tc main_arg7) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- Argument 8 is untouched up to boundary 8 of the fold. -/
theorem arg8_at8 : W8 m ρ c (Proc.devRef .tc main_arg8) = W0 m ρ c (Proc.devRef .tc main_arg8) :=
  (W8_of_ne m ρ c main_arg8 (by decide)).trans <|
  ((show W7 m ρ c (Proc.devRef .tc main_arg8) = W6 m ρ c (Proc.devRef .tc main_arg8) from StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W6_of_ne m ρ c main_arg8 (by decide)).trans <|
  ((show W5 m ρ c (Proc.devRef .tc main_arg8) = W4 m ρ c (Proc.devRef .tc main_arg8) from StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (W4_of_ne m ρ c main_arg8 (by decide)).trans <|
  ((show W3 m ρ c (Proc.devRef .tc main_arg8) = W2 m ρ c (Proc.devRef .tc main_arg8) from StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  ((show W2 m ρ c (Proc.devRef .tc main_arg8) = W1 m ρ c (Proc.devRef .tc main_arg8) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans <|
  (show W1 m ρ c (Proc.devRef .tc main_arg8) = W0 m ρ c (Proc.devRef .tc main_arg8) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The boundaries, in order -/

/-- The source endpoints as the first region finds them. -/
theorem entry_sources : W3 m ρ c (Proc.devRef .tc main_v3) = sources (m ((c : Thread nD τ).loc main_arg1)) := by
  show StableHlo.after hostOps0_2 (StableHlo.after hostOps0_1 (StableHlo.after hostOps0 (W0 m ρ c))) _ = _
  rw [keep02_sources, keep01_sources, read0_sources]

/-- The target endpoints as the first region finds them. -/
theorem entry_targets : W3 m ρ c (Proc.devRef .tc main_v6) = targets (m ((c : Thread nD τ).loc main_arg1)) := by
  show StableHlo.after hostOps0_2 (StableHlo.after hostOps0_1 (StableHlo.after hostOps0 (W0 m ρ c))) _ = _
  rw [keep02_targets, keep01_targets, read0_targets]

/-- The edge weights as the first region finds them. -/
theorem entry_weight : W3 m ρ c (Proc.devRef .tc main_v29) = weight (m ((c : Thread nD τ).loc main_arg1)) := by
  show StableHlo.after hostOps0_2 (StableHlo.after hostOps0_1 (StableHlo.after hostOps0 (W0 m ρ c))) _ = _
  rw [read02_weight, read01_guarded, keep01_sources, keep01_targets, read0_positive, read0_roots, read0_zero,
    read0_sources, read0_targets]
  rfl

/-- The features as the first region finds them. -/
theorem entry_features : W3 m ρ c (Proc.devRef .tc main_v30) = (m ((c : Thread nD τ).loc main_arg0)) := by
  show StableHlo.after hostOps0_2 (StableHlo.after hostOps0_1 (StableHlo.after hostOps0 (W0 m ρ c))) _ = _
  rw [read02_features]
  exact ((show W2 m ρ c (Proc.devRef .tc main_arg0) = W1 m ρ c (Proc.devRef .tc main_arg0) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (show W1 m ρ c (Proc.devRef .tc main_arg0) = W0 m ρ c (Proc.devRef .tc main_arg0) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The first layer's weights as the first region finds them. -/
theorem entry_weights1 : W3 m ρ c (Proc.devRef .tc main_v31) = (m ((c : Thread nD τ).loc main_arg2)) := by
  show StableHlo.after hostOps0_2 (StableHlo.after hostOps0_1 (StableHlo.after hostOps0 (W0 m ρ c))) _ = _
  rw [read02_weights1]
  exact ((show W2 m ρ c (Proc.devRef .tc main_arg2) = W1 m ρ c (Proc.devRef .tc main_arg2) from StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (show W1 m ρ c (Proc.devRef .tc main_arg2) = W0 m ρ c (Proc.devRef .tc main_arg2) from StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The first region leaves the product of the features with the first layer's weights. -/
theorem first_exit : W4 m ρ c (Proc.devRef .tc main_v32) = FirstProduct.product (m ((c : Thread nD τ).loc main_arg0)) (m ((c : Thread nD τ).loc main_arg2)) := by
  refine (W4_arr m ρ c 2).trans ?_
  refine (FirstProduct.array_eq (V3 m ρ) c).trans ?_
  show FirstProduct.product (W3 m ρ c (Proc.devRef .tc main_v30)) (W3 m ρ c (Proc.devRef .tc main_v31)) = _
  rw [entry_features, entry_weights1]

/-- The second region is entered with the aggregation of that product. -/
theorem second_entry_aggregate : W5 m ρ c (Proc.devRef .tc main_v46) = aggregate (m ((c : Thread nD τ).loc main_arg1)) (FirstProduct.product (m ((c : Thread nD τ).loc main_arg0)) (m ((c : Thread nD τ).loc main_arg2))) := by
  show StableHlo.after hostOps1 (W4 m ρ c) _ = _
  rw [read1_aggregate, carried4_sources, carried4_targets, carried4_weight, entry_sources, entry_targets, entry_weight, first_exit]
  rfl

/-- The second region is entered with the first bias as a row. -/
theorem second_entry_bias : W5 m ρ c (Proc.devRef .tc main_v47) = shapeCast S1x128 (m ((c : Thread nD τ).loc main_arg3)) shapeCasts_S128_S1x128 := by
  show StableHlo.after hostOps1 (W4 m ρ c) _ = _
  rw [read1_bias, arg3_at4]

/-- The second region leaves the kernel's hidden layer. -/
theorem second_exit : W6 m ρ c (Proc.devRef .tc main_v48) = Layers.hiddenOf (m ((c : Thread nD τ).loc main_arg0)) (m ((c : Thread nD τ).loc main_arg1)) (m ((c : Thread nD τ).loc main_arg2)) (m ((c : Thread nD τ).loc main_arg3)) := by
  refine (W6_arr m ρ c 2).trans ?_
  refine (BiasRelu.array_eq (V5 m ρ) c).trans ?_
  show BiasRelu.rectified (W5 m ρ c (Proc.devRef .tc main_v46)) (W5 m ρ c (Proc.devRef .tc main_v47)) = _
  rw [second_entry_aggregate, second_entry_bias]
  rfl

/-- The third region is entered with the hidden layer. -/
theorem third_entry_hidden : W7 m ρ c (Proc.devRef .tc main_v48) = Layers.hiddenOf (m ((c : Thread nD τ).loc main_arg0)) (m ((c : Thread nD τ).loc main_arg1)) (m ((c : Thread nD τ).loc main_arg2)) (m ((c : Thread nD τ).loc main_arg3)) := by
  show StableHlo.after hostOps2 (W6 m ρ c) _ = _
  rw [keep2_hidden, second_exit]

/-- The third region is entered with the two latent weight matrices side by side. -/
theorem third_entry_joined : W7 m ρ c (Proc.devRef .tc main_v50) = Layers.joinedOf (m ((c : Thread nD τ).loc main_arg4)) (m ((c : Thread nD τ).loc main_arg6)) := by
  show StableHlo.after hostOps2 (W6 m ρ c) _ = _
  rw [read2_joined, arg4_at6, arg6_at6]

/-- The third region leaves the hidden layer times the joined weights. -/
theorem third_exit : W8 m ρ c (Proc.devRef .tc main_v51)
    = SecondProduct.product (Layers.hiddenOf (m ((c : Thread nD τ).loc main_arg0)) (m ((c : Thread nD τ).loc main_arg1)) (m ((c : Thread nD τ).loc main_arg2)) (m ((c : Thread nD τ).loc main_arg3))) (Layers.joinedOf (m ((c : Thread nD τ).loc main_arg4)) (m ((c : Thread nD τ).loc main_arg6))) := by
  refine (W8_arr m ρ c 2).trans ?_
  refine (SecondProduct.array_eq (V7 m ρ) c).trans ?_
  show SecondProduct.product (W7 m ρ c (Proc.devRef .tc main_v48)) (W7 m ρ c (Proc.devRef .tc main_v50)) = _
  rw [third_entry_hidden, third_entry_joined]

/-- The last region is entered with the kernel's second aggregation. -/
theorem last_entry_aggregate : W9 m ρ c (Proc.devRef .tc main_v65)
    = Layers.secondOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps3 (W8 m ρ c) _ = _
  rw [read3_aggregate, carried8_sources, carried8_targets, carried8_weight, entry_sources, entry_targets, entry_weight, third_exit]
  rfl

/-- The last region is entered with the mean's bias as a row. -/
theorem last_entry_bias_mean : W9 m ρ c (Proc.devRef .tc main_v66) = shapeCast S1x64 (m ((c : Thread nD τ).loc main_arg5)) shapeCasts_S64_S1x64 := by
  show StableHlo.after hostOps3 (W8 m ρ c) _ = _
  rw [read3_bias_mean, arg5_at8]

/-- The last region is entered with the log standard deviation's bias as a row. -/
theorem last_entry_bias_logdev : W9 m ρ c (Proc.devRef .tc main_v67) = shapeCast S1x64 (m ((c : Thread nD τ).loc main_arg7)) shapeCasts_S64_S1x64 := by
  show StableHlo.after hostOps3 (W8 m ρ c) _ = _
  rw [read3_bias_logdev, arg7_at8]

/-- The last region is entered with the noise as launched. -/
theorem last_entry_noise : W9 m ρ c (Proc.devRef .tc main_arg8) = (m ((c : Thread nD τ).loc main_arg8)) := by
  show StableHlo.after hostOps3 (W8 m ρ c) _ = _
  rw [keep3_noise, arg8_at8]

/-! ## The three result arrays -/

/-- The mean array the run ends with. -/
theorem mean_array : (dat3 (V9 m ρ) c).arrAt 5 cfg3.N
    = Finalize.mean (Layers.secondOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (shapeCast S1x64 (m ((c : Thread nD τ).loc main_arg5)) shapeCasts_S64_S1x64) := by
  refine (Finalize.array5_eq (V9 m ρ) c).trans ?_
  show Finalize.mean (W9 m ρ c (Proc.devRef .tc main_v65)) (W9 m ρ c (Proc.devRef .tc main_v66)) = _
  rw [last_entry_aggregate, last_entry_bias_mean]

/-- The log standard deviation array the run ends with. -/
theorem logdev_array : (dat3 (V9 m ρ) c).arrAt 6 cfg3.N
    = Finalize.logdev (Layers.secondOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (shapeCast S1x64 (m ((c : Thread nD τ).loc main_arg7)) shapeCasts_S64_S1x64) := by
  refine (Finalize.array6_eq (V9 m ρ) c).trans ?_
  show Finalize.logdev (W9 m ρ c (Proc.devRef .tc main_v65)) (W9 m ρ c (Proc.devRef .tc main_v67)) = _
  rw [last_entry_aggregate, last_entry_bias_logdev]

/-- The sample array the run ends with. -/
theorem sample_array : (dat3 (V9 m ρ) c).arrAt 4 cfg3.N
    = Finalize.sample (Layers.secondOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (shapeCast S1x64 (m ((c : Thread nD τ).loc main_arg5)) shapeCasts_S64_S1x64)
        (shapeCast S1x64 (m ((c : Thread nD τ).loc main_arg7)) shapeCasts_S64_S1x64) (m ((c : Thread nD τ).loc main_arg8)) := by
  refine (Finalize.array4_eq (V9 m ρ) c).trans ?_
  show Finalize.sample (W9 m ρ c (Proc.devRef .tc main_v65)) (W9 m ρ c (Proc.devRef .tc main_v66)) (W9 m ρ c (Proc.devRef .tc main_v67)) (W9 m ρ c (Proc.devRef .tc main_arg8)) = _
  rw [last_entry_aggregate, last_entry_bias_mean, last_entry_bias_logdev, last_entry_noise]

end Cert.KernelIdeal.Stages

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibSegmentAggregate.lean ====
/-
  One round of message passing on a graph, read at an entry.

  Take the rows `h[src]` of a matrix `h : [N, C]` along an index column `src : [E, 1]`, scale them entry by
  entry by `nb : [E, C]`, and add them into `z : [N, C]` along an index column `dst : [E, 1]`. Entry `(r, c)`
  of the result is `z (r, c)` plus the sum, over the edges `e` whose destination index is `r`, of
  `h (row e, c) · nb (e, c)`, where `row e` is edge `e`'s source index clamped into the matrix.
-/
import proofs.«116371_j44220983280296_2_alg».proof.Proof.LibSegmentRows

noncomputable section

open Idealize.ShloMosaic Idealize.ShloMosaic.ValueIdx

namespace Cert.SegmentAggregate

open Cert.SegmentRows

/-- Gather rows, scale, scatter-add, at entry `(r, c)`. -/
theorem gather_scale_scatter_apply {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : (⟨2, ![N, C]⟩ : Shape).Idx → EReal) (src dst : IVec ⟨2, ![E, 1]⟩ w)
    (h : (⟨2, ![N, C]⟩ : Shape).Idx → EReal) (nb : (⟨2, ![E, C]⟩ : Shape).Idx → EReal) (r : Fin N) (c : Fin C) :
    Ideal.hostScatterAdd (rowScatterDims N E C wfs) z dst
        (fun i => Host.gather (rowGatherDims N E C wfg) h src i * nb i) (ix2 r c)
      = z (ix2 r c) + ∑ e ∈ segment dst r, h (ix2 (takeRow hN src e) c) * nb (ix2 e c) := by
  rw [scatterAdd_rows_apply]
  congr 1
  refine Finset.sum_congr rfl fun e _ => ?_
  show Host.gather (rowGatherDims N E C wfg) h src (ix2 e c) * nb (ix2 e c) = _
  rw [gather_rows_apply hN]

/-- The same for any printed dimension records of the row-gather and row-scatter form, over the host's
    operations: the records enter as variables with the equations that say what they are, so that a use at
    concrete sizes is one syntactic match. -/
theorem host_gather_scale_scatter_apply {N E C w : Nat} (hN : 0 < N) {φ : FTy}
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (g : GatherDims ⟨2, ![N, C]⟩ ⟨2, ![E, 1]⟩ ⟨2, ![E, C]⟩) (d : ScatterDims ⟨2, ![N, C]⟩ ⟨2, ![E, 1]⟩ ⟨2, ![E, C]⟩)
    (hg : g = rowGatherDims N E C wfg) (hd : d = rowScatterDims N E C wfs)
    (z : FVec Ideal ⟨2, ![N, C]⟩ φ) (src dst : IVec ⟨2, ![E, 1]⟩ w)
    (h : FVec Ideal ⟨2, ![N, C]⟩ φ) (nb : FVec Ideal ⟨2, ![E, C]⟩ φ) (r : Fin N) (c : Fin C) :
    Host.scatterAdd (F := Ideal) d z dst (mulf (Host.gather g h src) nb) (ix2 r c)
      = z (ix2 r c) + ∑ e ∈ segment dst r, h (ix2 (takeRow hN src e) c) * nb (ix2 e c) := by
  subst hg hd
  exact gather_scale_scatter_apply hN wfg wfs z src dst h nb r c

end Cert.SegmentAggregate

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«116371_j44220983280296_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.LayerReads.lean ====
/-
  The encoder's layers read at an entry.

  Over the extended reals every layer of the encoder is a finite sum or a pointwise expression at each entry:
  one round of aggregation at `(r, c)` is the sum, over the edges that point at node `r`, of the source node's
  entry in column `c` times the edge's weight; a product of matrices at `(r, c)` is the sum over `k` of
  `l (r, k) · w (k, c)`; a bias row is added column by column; the rectifier is the maximum with zero.
-/
import proofs.«116371_j44220983280296_2_alg».proof.Proof.GraphLayers
import proofs.«116371_j44220983280296_2_alg».proof.Proof.LibSegmentAggregate
import proofs.«116371_j44220983280296_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.GraphLayers

open Idealize.ShloMosaic Idealize.ShloMosaic.ValueIdx Cert.ReferenceIdeal Cert.ReferenceIdeal.Facts₀ Cert.ReferenceIdeal.Facts
open Cert.SegmentRows Cert.SegmentAggregate

/-- A scalar spread over an array reads as the scalar everywhere. -/
theorem scalar_read {s : Shape} (hb : S_.BroadcastsInDim s ![]) (z : FVec Ideal S_ .f32) (j : s.Idx) :
    broadcastInDim s ![] hb z j = z ix0 :=
  broadcastInDim_apply ![] hb z j ix0 (fun a => a.elim0)

/-- The zero word spread over an array reads as its value everywhere. -/
theorem zero_read {s : Shape} (hb : S_.BroadcastsInDim s ![]) (j : s.Idx) :
    broadcastInDim s ![] hb (constant (F := Ideal) S_ .f32 0x00000000#32) j = Ideal.ofBits .f32 0x00000000#32 :=
  (scalar_read hb _ j).trans rfl

/-- The edge weights spread over 128 columns read, at `(e, c)`, as edge `e`'s weight. -/
theorem weight_read128 (wv : FVec Ideal S1700000 .f32) (e : Fin 1700000) (c : Fin 128) :
    broadcastInDim S1700000x128 ![0, 1] bcast_S1700000x1_S1700000x128_0_1
      (broadcastInDim S1700000x1 ![0] bcast_S1700000_S1700000x1_0 wv) (ix2 e c) = wv (ix1 e) := by
  refine (broadcastInDim_apply ![0, 1] bcast_S1700000x1_S1700000x128_0_1 _ (ix2 e c) (ix2 e 0) (fun a => by
    match a with
    | ⟨0, _⟩ => rfl
    | ⟨1, _⟩ => rfl)).trans ?_
  exact broadcastInDim_apply ![0] bcast_S1700000_S1700000x1_0 wv (ix2 e 0) (ix1 e) (fun a => by
    match a with
    | ⟨0, _⟩ => rfl)

/-- The edge weights spread over 64 columns read, at `(e, c)`, as edge `e`'s weight. -/
theorem weight_read64 (wv : FVec Ideal S1700000 .f32) (e : Fin 1700000) (c : Fin 64) :
    broadcastInDim S1700000x64 ![0, 1] bcast_S1700000x1_S1700000x64_0_1
      (broadcastInDim S1700000x1 ![0] bcast_S1700000_S1700000x1_0 wv) (ix2 e c) = wv (ix1 e) := by
  refine (broadcastInDim_apply ![0, 1] bcast_S1700000x1_S1700000x64_0_1 _ (ix2 e c) (ix2 e 0) (fun a => by
    match a with
    | ⟨0, _⟩ => rfl
    | ⟨1, _⟩ => rfl)).trans ?_
  exact broadcastInDim_apply ![0] bcast_S1700000_S1700000x1_0 wv (ix2 e 0) (ix1 e) (fun a => by
    match a with
    | ⟨0, _⟩ => rfl)

/-- Entry `(r, c)` of one round of aggregation (128 columns): zero plus, over the edges that point at node `r`, the
    source node's entry in column `c` times the edge's weight. -/
theorem aggregateOf_apply (s t : IVec S1700000 32) (wv : FVec Ideal S1700000 .f32) (h : FVec Ideal S100000x128 .f32)
    (r : Fin 100000) (c : Fin 128) :
    aggregateOf s t wv h (ix2 r c) = Ideal.ofBits .f32 0x00000000#32
      + ∑ e ∈ segment (column t) r, h (ix2 (takeRow (N := 100000) (by decide) (wrapped s) e) c) * wv (ix1 e) := by
  unfold aggregateOf
  refine (host_gather_scale_scatter_apply (N := 100000) (E := 1700000) (C := 128) (w := 32) (by decide)
    gather_S100000x128_S1700000x1_S1700000x128_1_0_n_n_0_1_1128_wf scatter_S100000x128_S1700000x1_S1700000x128_1_0_0_1_wf gather_S100000x128_S1700000x1_S1700000x128_1_0_n_n_0_1_1128 scatter_S100000x128_S1700000x1_S1700000x128_1_0_0_1 rfl rfl _ (wrapped s) (column t) h _ r c).trans ?_
  rw [zero_read]
  refine congrArg (Ideal.ofBits .f32 0x00000000#32 + ·) (Finset.sum_congr rfl fun e _ => ?_)
  rw [weight_read128]

/-- Entry `(r, c)` of one round of aggregation (64 columns): zero plus, over the edges that point at node `r`, the
    source node's entry in column `c` times the edge's weight. -/
theorem aggregate64Of_apply (s t : IVec S1700000 32) (wv : FVec Ideal S1700000 .f32) (h : FVec Ideal S100000x64 .f32)
    (r : Fin 100000) (c : Fin 64) :
    aggregate64Of s t wv h (ix2 r c) = Ideal.ofBits .f32 0x00000000#32
      + ∑ e ∈ segment (column t) r, h (ix2 (takeRow (N := 100000) (by decide) (wrapped s) e) c) * wv (ix1 e) := by
  unfold aggregate64Of
  refine (host_gather_scale_scatter_apply (N := 100000) (E := 1700000) (C := 64) (w := 32) (by decide)
    gather_S100000x64_S1700000x1_S1700000x64_1_0_n_n_0_1_164_wf scatter_S100000x64_S1700000x1_S1700000x64_1_0_0_1_wf gather_S100000x64_S1700000x1_S1700000x64_1_0_n_n_0_1_164 scatter_S100000x64_S1700000x1_S1700000x64_1_0_0_1 rfl rfl _ (wrapped s) (column t) h _ r c).trans ?_
  rw [zero_read]
  refine congrArg (Ideal.ofBits .f32 0x00000000#32 + ·) (Finset.sum_congr rfl fun e _ => ?_)
  rw [weight_read64]

/-- The host's product `x · W1` at `(a, b)`. -/
theorem dot256_apply (x : FVec Ideal S100000x256 .f32) (w : FVec Ideal S256x128 .f32) (a : Fin 100000) (b : Fin 128) :
    Host.dotGeneral (F := Ideal) dot_S100000x256_S256x128_S100000x128_1_0_0_1_n_n none x w (ix2 a b)
      = ∑ k : Fin 256, x (ix2 a k) * w (ix2 k b) :=
  Cert.LibPlainDot.dotGeneral_plain_apply dot_S100000x256_S256x128_S100000x128_1_0_0_1_n_n rfl rfl rfl rfl rfl rfl none .single x w a b

/-- The host's product `hidden · W` at `(a, b)`. -/
theorem dot64_apply (x : FVec Ideal S100000x128 .f32) (w : FVec Ideal S128x64 .f32) (a : Fin 100000) (b : Fin 64) :
    Host.dotGeneral (F := Ideal) dot_S100000x128_S128x64_S100000x64_1_0_0_1_n_n none x w (ix2 a b)
      = ∑ k : Fin 128, x (ix2 a k) * w (ix2 k b) :=
  Cert.LibPlainDot.dotGeneral_plain_apply dot_S100000x128_S128x64_S100000x64_1_0_0_1_n_n rfl rfl rfl rfl rfl rfl none .single x w a b

/-- A 128-long bias spread over the rows reads, at `(r, c)`, as its entry `c`. -/
theorem bias128_read (b : FVec Ideal S128 .f32) (r : Fin 100000) (c : Fin 128) :
    broadcastInDim S100000x128 ![0, 1] bcast_S1x128_S100000x128_0_1 (broadcastInDim S1x128 ![1] bcast_S128_S1x128_1 b) (ix2 r c)
      = b (ix1 c) := by
  refine (broadcastInDim_apply ![0, 1] bcast_S1x128_S100000x128_0_1 _ (ix2 r c) (ix2 0 c) (fun a => by
    match a with
    | ⟨0, _⟩ => rfl
    | ⟨1, _⟩ => rfl)).trans ?_
  exact broadcastInDim_apply ![1] bcast_S128_S1x128_1 b (ix2 0 c) (ix1 c) (fun a => by
    match a with
    | ⟨0, _⟩ => rfl)

/-- A 64-long bias spread over the rows reads, at `(r, c)`, as its entry `c`. -/
theorem bias64_read (b : FVec Ideal S64 .f32) (r : Fin 100000) (c : Fin 64) :
    broadcastInDim S100000x64 ![0, 1] bcast_S1x64_S100000x64_0_1 (broadcastInDim S1x64 ![1] bcast_S64_S1x64_1 b) (ix2 r c)
      = b (ix1 c) := by
  refine (broadcastInDim_apply ![0, 1] bcast_S1x64_S100000x64_0_1 _ (ix2 r c) (ix2 0 c) (fun a => by
    match a with
    | ⟨0, _⟩ => rfl
    | ⟨1, _⟩ => rfl)).trans ?_
  exact broadcastInDim_apply ![1] bcast_S64_S1x64_1 b (ix2 0 c) (ix1 c) (fun a => by
    match a with
    | ⟨0, _⟩ => rfl)

/-- The hidden layer at `(r, c)`. -/
theorem hiddenOf_apply (s t : IVec S1700000 32) (wv : FVec Ideal S1700000 .f32) (x : FVec Ideal S100000x256 .f32)
    (w1 : FVec Ideal S256x128 .f32) (b1 : FVec Ideal S128 .f32) (r : Fin 100000) (c : Fin 128) :
    hiddenOf s t wv x w1 b1 (constant (F := Ideal) S_ .f32 0x00000000#32) (ix2 r c)
      = max (aggregateOf s t wv (Host.dotGeneral (F := Ideal) dot_S100000x256_S256x128_S100000x128_1_0_0_1_n_n none x w1) (ix2 r c) + b1 (ix1 c))
          (Ideal.ofBits .f32 0x00000000#32) := by
  unfold hiddenOf
  rw [maximumf_apply, addf_apply, bias128_read, zero_read]

/-- A latent head at `(r, c)`. -/
theorem latentOf_apply (s t : IVec S1700000 32) (wv : FVec Ideal S1700000 .f32) (hid : FVec Ideal S100000x128 .f32)
    (w : FVec Ideal S128x64 .f32) (b : FVec Ideal S64 .f32) (r : Fin 100000) (c : Fin 64) :
    latentOf s t wv hid w b (ix2 r c)
      = aggregate64Of s t wv (Host.dotGeneral (F := Ideal) dot_S100000x128_S128x64_S100000x64_1_0_0_1_n_n none hid w) (ix2 r c) + b (ix1 c) := by
  unfold latentOf
  rw [addf_apply, bias64_read]

/-- The sample at an entry. -/
theorem sampled_apply (mu ls eps : FVec Ideal S100000x64 .f32) (i : S100000x64.Idx) :
    sampled mu ls eps i = mu i + eps i * Ideal.exp (ls i) := by
  unfold sampled
  rw [addf_apply, mulf_apply]
  rfl

end Cert.GraphLayers

end
-- ==== Proof.Bridge.lean ====
/-
  The kernel's arrangement of the encoder computes the reference's function.

  First layer: a matrix product accumulated block by block is the one whole product, so the kernel's hidden
  layer is the reference's. Second layer: the kernel multiplies the hidden layer by the two latent weight
  matrices joined side by side and aggregates the 128-column product once. Column `c` of the joined matrix is
  column `c` of the first matrix for `c < 64` and column `c - 64` of the second otherwise, so entry `(s, c)` of the
  joined product is the same sum over `k` as the corresponding entry of one head's product. Aggregation over
  the graph treats every column alone: entry `(r, c)` sums, over the edges that point at `r`, the source row's
  entry in column `c` times the edge's weight. So the low 64 columns of the kernel's aggregation are the
  aggregation of the first head's product, and the high 64 columns that of the second. Biases and the
  exponential are applied entry by entry in both programs. No law beyond reading each side as this sum is used:
  nothing is distributed or cancelled, so no finiteness of the inputs is needed.
-/
import proofs.«116371_j44220983280296_2_alg».proof.Proof.KernelLayers
import proofs.«116371_j44220983280296_2_alg».proof.Proof.LayerReads

set_option maxRecDepth 16384

noncomputable section

namespace Cert.Bridge

open Idealize.ShloMosaic Idealize.ShloMosaic.ValueIdx
open Cert.KernelIdeal Cert.GraphLayers Cert.SegmentRows
open Cert.KernelIdeal.Layers Cert.KernelIdeal.Finalize

/-! ## The kernel's whole-array functions at an entry -/

theorem first_product_apply (l : S100000x256.Idx → EReal) (w : S256x128.Idx → EReal) (a : Fin 100000) (b : Fin 128) :
    FirstProduct.product l w (ix2 a b) = ∑ k : Fin 256, l (ix2 a k) * w (ix2 k b) := rfl

theorem second_product_apply (l : S100000x128.Idx → EReal) (w : S128x128.Idx → EReal) (a : Fin 100000) (b : Fin 128) :
    SecondProduct.product l w (ix2 a b) = ∑ k : Fin 128, l (ix2 a k) * w (ix2 k b) := rfl

theorem rectified_apply (a : S100000x128.Idx → EReal) (b : S1x128.Idx → EReal) (r : Fin 100000) (c : Fin 128) :
    BiasRelu.rectified a b (ix2 r c) = max (a (ix2 r c) + b (ix2 0 c)) (Ideal.ofBits .f32 0x00000000#32) := rfl

theorem mean_apply (a : S100000x128.Idx → EReal) (bm : S1x64.Idx → EReal) (r : Fin 100000) (c : Fin 64) :
    mean a bm (ix2 r c) = a (ix2 r (lo c)) + bm (ix2 0 c) := rfl

theorem logdev_apply (a : S100000x128.Idx → EReal) (bl : S1x64.Idx → EReal) (r : Fin 100000) (c : Fin 64) :
    logdev a bl (ix2 r c) = a (ix2 r (hi c)) + bl (ix2 0 c) := rfl

theorem sample_apply (a : S100000x128.Idx → EReal) (bm bl : S1x64.Idx → EReal) (e : S100000x64.Idx → EReal) (i : S100000x64.Idx) :
    sample a bm bl e i = mean a bm i + e i * Ideal.exp (logdev a bl i) := rfl

/-! ## The first layer -/

/-- The product accumulated block by block is the whole product. -/
theorem first_product_eq (x : FVec Ideal Cert.ReferenceIdeal.S100000x256 .f32) (w1 : FVec Ideal Cert.ReferenceIdeal.S256x128 .f32) :
    FirstProduct.product x w1
      = Host.dotGeneral (F := Ideal) Cert.ReferenceIdeal.dot_S100000x256_S256x128_S100000x128_1_0_0_1_n_n none x w1 := by
  funext i
  obtain ⟨a, b, rfl⟩ : ∃ (a : Fin 100000) (b : Fin 128), i = ix2 a b := ⟨i 0, i 1, eq_ix2 i⟩
  rw [first_product_apply]
  exact (dot256_apply x w1 a b).symm

/-- A length-`n` vector laid out as a `1 × n` row reads, at `(0, c)`, as its entry `c`. -/
theorem row_read {n : Nat} (b : (⟨1, ![n]⟩ : Shape).Idx → EReal) (hc : (⟨1, ![n]⟩ : Shape).ShapeCasts ⟨2, ![1, n]⟩) (c : Fin n) :
    shapeCast ⟨2, ![1, n]⟩ b hc (ix2 0 c) = b (ix1 c) :=
  shapeCast_apply b hc (ix2 0 c) (ix1 c) (by
    rw [Shape.rowMajor_val_one, Shape.rowMajor_val_two]
    show c.val = (0 : Fin 1).val * n + c.val
    simp)

/-- The kernel's hidden layer is the reference's. -/
theorem hidden_eq (x : FVec Ideal Cert.ReferenceIdeal.S100000x256 .f32) (ei : IVec Cert.ReferenceIdeal.S2x1600000 32) (w1 : FVec Ideal Cert.ReferenceIdeal.S256x128 .f32)
    (b1 : FVec Ideal Cert.ReferenceIdeal.S128 .f32) : Layers.hiddenOf x ei w1 b1 = hidden x ei w1 b1 := by
  funext i
  obtain ⟨r, c, rfl⟩ : ∃ (r : Fin 100000) (c : Fin 128), i = ix2 r c := ⟨i 0, i 1, eq_ix2 i⟩
  refine Eq.trans ?_ (hiddenOf_apply (sources ei) (targets ei) (weight ei) x w1 b1 r c).symm
  unfold Layers.hiddenOf
  rw [rectified_apply, first_product_eq, row_read]
  rfl

/-! ## The second layer -/

/-- A low column of the joined weight matrix is that column of the first matrix. -/
theorem joined_low (wmu wls : FVec Ideal Cert.ReferenceIdeal.S128x64 .f32) (k : Fin 128) (c : Fin 64) :
    joinedOf wmu wls (ix2 k (lo c)) = wmu (ix2 k c) := by
  unfold joinedOf
  exact concatenate_pair_apply_left (1 : Fin 2) wmu wls _ (ix2 k (lo c)) rfl (ix2 k c) (fun b => by
    match b with
    | ⟨0, _⟩ => rfl
    | ⟨1, _⟩ => rfl)

/-- A high column of the joined weight matrix is that column of the second matrix. -/
theorem joined_high (wmu wls : FVec Ideal Cert.ReferenceIdeal.S128x64 .f32) (k : Fin 128) (c : Fin 64) :
    joinedOf wmu wls (ix2 k (hi c)) = wls (ix2 k c) := by
  unfold joinedOf
  exact concatenate_pair_apply_right (1 : Fin 2) wmu wls _ (ix2 k (hi c)) rfl rfl (ix2 k c) (fun b hb => by
    match b with
    | ⟨0, _⟩ => rfl
    | ⟨1, _⟩ => exact absurd rfl hb) (by show c.val + 64 = 64 + c.val; omega)

/-- A low column of the joined product is that column of the first head's product. -/
theorem product_low (hid : FVec Ideal Cert.ReferenceIdeal.S100000x128 .f32) (wmu wls : FVec Ideal Cert.ReferenceIdeal.S128x64 .f32) (s : Fin 100000) (c : Fin 64) :
    SecondProduct.product hid (joinedOf wmu wls) (ix2 s (lo c))
      = Host.dotGeneral (F := Ideal) Cert.ReferenceIdeal.dot_S100000x128_S128x64_S100000x64_1_0_0_1_n_n none hid wmu (ix2 s c) := by
  rw [dot64_apply, second_product_apply]
  exact Finset.sum_congr rfl fun k _ => by rw [joined_low]

/-- A high column of the joined product is that column of the second head's product. -/
theorem product_high (hid : FVec Ideal Cert.ReferenceIdeal.S100000x128 .f32) (wmu wls : FVec Ideal Cert.ReferenceIdeal.S128x64 .f32) (s : Fin 100000) (c : Fin 64) :
    SecondProduct.product hid (joinedOf wmu wls) (ix2 s (hi c))
      = Host.dotGeneral (F := Ideal) Cert.ReferenceIdeal.dot_S100000x128_S128x64_S100000x64_1_0_0_1_n_n none hid wls (ix2 s c) := by
  rw [dot64_apply, second_product_apply]
  exact Finset.sum_congr rfl fun k _ => by rw [joined_high]

/-- Aggregation treats every column alone: if column `f c` of a 128-column matrix is column `c` of a 64-column
    one, the same holds of their aggregations. -/
theorem aggregate_column (ei : IVec Cert.ReferenceIdeal.S2x1600000 32) (h128 : FVec Ideal Cert.ReferenceIdeal.S100000x128 .f32) (h64 : FVec Ideal Cert.ReferenceIdeal.S100000x64 .f32)
    (f : Fin 64 → Fin 128) (hcol : ∀ (s : Fin 100000) (c : Fin 64), h128 (ix2 s (f c)) = h64 (ix2 s c))
    (r : Fin 100000) (c : Fin 64) :
    aggregate ei h128 (ix2 r (f c)) = aggregate64Of (sources ei) (targets ei) (weight ei) h64 (ix2 r c) := by
  unfold aggregate
  rw [aggregateOf_apply, aggregate64Of_apply]
  exact congrArg (Ideal.ofBits .f32 0x00000000#32 + ·) (Finset.sum_congr rfl fun e _ => by rw [hcol])

/-- The kernel's mean is the reference's. -/
theorem mean_eq (x : FVec Ideal Cert.ReferenceIdeal.S100000x256 .f32) (ei : IVec Cert.ReferenceIdeal.S2x1600000 32) (w1 : FVec Ideal Cert.ReferenceIdeal.S256x128 .f32)
    (b1 : FVec Ideal Cert.ReferenceIdeal.S128 .f32) (wmu wls : FVec Ideal Cert.ReferenceIdeal.S128x64 .f32) (bmu : FVec Ideal Cert.ReferenceIdeal.S64 .f32) (hc : S64.ShapeCasts S1x64) :
    mean (secondOf x ei w1 b1 wmu wls) (shapeCast S1x64 bmu hc) = latent ei (hidden x ei w1 b1) wmu bmu := by
  funext i
  obtain ⟨r, c, rfl⟩ : ∃ (r : Fin 100000) (c : Fin 64), i = ix2 r c := ⟨i 0, i 1, eq_ix2 i⟩
  refine Eq.trans ?_ (latentOf_apply (sources ei) (targets ei) (weight ei) (hidden x ei w1 b1) wmu bmu r c).symm
  rw [mean_apply, row_read]
  unfold secondOf
  rw [hidden_eq, aggregate_column ei _ _ lo (fun s c' => product_low (hidden x ei w1 b1) wmu wls s c') r c]

/-- The kernel's log standard deviation is the reference's. -/
theorem logdev_eq (x : FVec Ideal Cert.ReferenceIdeal.S100000x256 .f32) (ei : IVec Cert.ReferenceIdeal.S2x1600000 32) (w1 : FVec Ideal Cert.ReferenceIdeal.S256x128 .f32)
    (b1 : FVec Ideal Cert.ReferenceIdeal.S128 .f32) (wmu wls : FVec Ideal Cert.ReferenceIdeal.S128x64 .f32) (bls : FVec Ideal Cert.ReferenceIdeal.S64 .f32) (hc : S64.ShapeCasts S1x64) :
    logdev (secondOf x ei w1 b1 wmu wls) (shapeCast S1x64 bls hc) = latent ei (hidden x ei w1 b1) wls bls := by
  funext i
  obtain ⟨r, c, rfl⟩ : ∃ (r : Fin 100000) (c : Fin 64), i = ix2 r c := ⟨i 0, i 1, eq_ix2 i⟩
  refine Eq.trans ?_ (latentOf_apply (sources ei) (targets ei) (weight ei) (hidden x ei w1 b1) wls bls r c).symm
  rw [logdev_apply, row_read]
  unfold secondOf
  rw [hidden_eq, aggregate_column ei _ _ hi (fun s c' => product_high (hidden x ei w1 b1) wmu wls s c') r c]

/-- The kernel's sample is the reference's. -/
theorem sample_eq (x : FVec Ideal Cert.ReferenceIdeal.S100000x256 .f32) (ei : IVec Cert.ReferenceIdeal.S2x1600000 32) (w1 : FVec Ideal Cert.ReferenceIdeal.S256x128 .f32)
    (b1 : FVec Ideal Cert.ReferenceIdeal.S128 .f32) (wmu wls : FVec Ideal Cert.ReferenceIdeal.S128x64 .f32) (bmu bls : FVec Ideal Cert.ReferenceIdeal.S64 .f32)
    (eps : FVec Ideal Cert.ReferenceIdeal.S100000x64 .f32) (hm hl : S64.ShapeCasts S1x64) :
    sample (secondOf x ei w1 b1 wmu wls) (shapeCast S1x64 bmu hm) (shapeCast S1x64 bls hl) eps
      = sampled (latent ei (hidden x ei w1 b1) wmu bmu) (latent ei (hidden x ei w1 b1) wls bls) eps := by
  funext i
  rw [sample_apply, mean_eq, logdev_eq, sampled_apply]

end Cert.Bridge

end
-- ==== Proof.ReferenceRun.lean ====
/-
  The reference program's run, read as a fold.

  The reference is a straight line of 106 host operations (the two functions it calls stand inline at their
  call sites). Every weakly fair execution terminates, and each buffer ends at the fold of the operations'
  results over the launch contents. No operation writes an argument, so each argument ends as launched.
-/
import proofs.«116371_j44220983280296_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    binary main_v47 main_arg6 main_v65 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v73 (broadcastInDim S1700000x1 ![0] bcast_S1700000_S1700000x1_0 : (⟨S1700000, .f32⟩ : BufTy).Contents (Elt F) → (⟨S1700000x1, .f32⟩ : BufTy).Contents (Elt F)),
    unary main_v73 main_v74 (broadcastInDim S1700000x64 ![0, 1] bcast_S1700000x1_S1700000x64_0_1 : (⟨S1700000x1, .f32⟩ : BufTy).Contents (Elt F) → (⟨S1700000x64, .f32⟩ : BufTy).Contents (Elt F)),
    binary main_v72 main_v74 main_v75 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v76 (broadcastInDim S100000x64 ![] bcast_S_S100000x64 : (⟨S_, .f32⟩ : BufTy).Contents (Elt F) → (⟨S100000x64, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v75 main_v78 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)),
    unary main_v81 main_v82 (Host.exp : (⟨S100000x64, .f32⟩ : BufTy).Contents (Elt F) → (⟨S100000x64, .f32⟩ : BufTy).Contents (Elt F)),
    binary main_arg8 main_v82 main_v83 (mulf : (⟨S100000x64, .f32⟩ : BufTy).Contents (Elt F) → (⟨S100000x64, .f32⟩ : BufTy).Contents (Elt F) → (⟨S100000x64, .f32⟩ : BufTy).Contents (Elt F)),
    binary main_v64 main_v83 main_v84 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The program is the sequence of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., binary_bufs_sub ..⟩

/-- Every weakly fair execution terminates, each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.HandRun

end
-- ==== Proof.ReferenceValue.lean ====
/-
  The reference program's three results as functions of its arguments.

  The run of the reference is a fold of its 106 host operations. Cut into eight stretches, each stretch is read
  once, from an arbitrary incoming valuation, as the layer it computes: the edge endpoints and degrees; the
  guarded inverse roots; the edge weights; the biased aggregation of `x · W1`; its rectification; the mean; the
  log standard deviation; the sample. Nothing a later stretch needs is overwritten in between, and no operation
  writes an argument. Composing the stretches gives the mean and the log standard deviation as the two latent
  heads of the hidden layer, and the sample as their combination with the noise.
-/
import proofs.«116371_j44220983280296_2_alg».proof.Proof.ReferenceRun
import proofs.«116371_j44220983280296_2_alg».proof.Proof.GraphLayers

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.GraphLayers

/-! ## The stretches -/

section Stretches
variable {F : FTy → Type} [FloatOps F]

/-- Operations 1 to 18 of the program. -/
abbrev stretchA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 to 21 of the program. -/
abbrev stretchB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 to 40 of the program. -/
abbrev stretchC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Operations 41 to 60 of the program. -/
abbrev stretchD : List (HloOp τ sig (Elt F)) :=
  [ binary main_arg0 main_arg2 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- Operations 61 to 63 of the program. -/
abbrev stretchE : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Operations 64 to 83 of the program. -/
abbrev stretchF : List (HloOp τ sig (Elt F)) :=
  [ binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v55 main_v57 main_v58 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)) ]

/-- Operations 84 to 103 of the program. -/
abbrev stretchG : List (HloOp τ sig (Elt F)) :=
  [ binary main_v47 main_arg6 main_v65 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v73 (broadcastInDim S1700000x1 ![0] bcast_S1700000_S1700000x1_0 : (⟨S1700000, .f32⟩ : BufTy).Contents (Elt F) → (⟨S1700000x1, .f32⟩ : BufTy).Contents (Elt F)),
    unary main_v73 main_v74 (broadcastInDim S1700000x64 ![0, 1] bcast_S1700000x1_S1700000x64_0_1 : (⟨S1700000x1, .f32⟩ : BufTy).Contents (Elt F) → (⟨S1700000x64, .f32⟩ : BufTy).Contents (Elt F)),
    binary main_v72 main_v74 main_v75 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v76 (broadcastInDim S100000x64 ![] bcast_S_S100000x64 : (⟨S_, .f32⟩ : BufTy).Contents (Elt F) → (⟨S100000x64, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v75 main_v78 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)) ]

/-- Operations 104 to 106 of the program. -/
abbrev stretchH : List (HloOp τ sig (Elt F)) :=
  [ unary main_v81 main_v82 (Host.exp : (⟨S100000x64, .f32⟩ : BufTy).Contents (Elt F) → (⟨S100000x64, .f32⟩ : BufTy).Contents (Elt F)),
    binary main_arg8 main_v82 main_v83 (mulf : (⟨S100000x64, .f32⟩ : BufTy).Contents (Elt F) → (⟨S100000x64, .f32⟩ : BufTy).Contents (Elt F) → (⟨S100000x64, .f32⟩ : BufTy).Contents (Elt F)),
    binary main_v64 main_v83 main_v84 (addf : (⟨S100000x64, .f32⟩ : BufTy).Contents (Elt F) → (⟨S100000x64, .f32⟩ : BufTy).Contents (Elt F) → (⟨S100000x64, .f32⟩ : BufTy).Contents (Elt F)) ]

/-- The operations before the biased aggregation's. -/
abbrev preC : List (HloOp τ sig (Elt F)) := stretchA ++ stretchB ++ stretchC
/-- The operations before the rectifier's. -/
abbrev preD : List (HloOp τ sig (Elt F)) := preC ++ stretchD
/-- The operations before the mean's. -/
abbrev preE : List (HloOp τ sig (Elt F)) := preD ++ stretchE
/-- The operations before the log standard deviation's. -/
abbrev preF : List (HloOp τ sig (Elt F)) := preE ++ stretchF
/-- The operations before the sample's. -/
abbrev preG : List (HloOp τ sig (Elt F)) := preF ++ stretchG

set_option maxRecDepth 65536 in
/-- The program's operations are the stretches in order. -/
theorem ops_split : (ops (F := F)) = preG ++ stretchH := rfl

end Stretches

/-- Folding over two lists in a row is folding over the first, then over the second. -/
theorem after_append (A B : List (HloOp τ sig (Elt Ideal))) (V : Valuation τ sig (Elt Ideal)) :
    after (A ++ B) V = after B (after A V) := by
  induction A generalizing V with
  | nil => rfl
  | cons a A ih => exact ih _

/-! ## Each stretch, read from an arbitrary incoming valuation -/

set_option maxHeartbeats 2000000 in
/-- The first stretch leaves the source endpoints of the edge list it finds. -/
theorem readA_sources (V : Valuation τ sig (Elt Ideal)) :
    after (stretchA (F := Ideal)) V (Proc.devRef .tc main_v3) = sources (V (Proc.devRef .tc main_arg1)) := by
  after_results_simp
  rfl

set_option maxHeartbeats 2000000 in
/-- The first stretch leaves the target endpoints of the edge list it finds. -/
theorem readA_targets (V : Valuation τ sig (Elt Ideal)) :
    after (stretchA (F := Ideal)) V (Proc.devRef .tc main_v6) = targets (V (Proc.devRef .tc main_arg1)) := by
  after_results_simp
  rfl

set_option maxHeartbeats 2000000 in
/-- The first stretch leaves which degrees are positive. -/
theorem readA_positive (V : Valuation τ sig (Elt Ideal)) :
    after (stretchA (F := Ideal)) V (Proc.devRef .tc main_v12) = positiveOf (degreeOf (targets (V (Proc.devRef .tc main_arg1)))) := by
  after_results_simp
  rfl

set_option maxHeartbeats 2000000 in
/-- The first stretch leaves the inverse square roots of the degrees. -/
theorem readA_roots (V : Valuation τ sig (Elt Ideal)) :
    after (stretchA (F := Ideal)) V (Proc.devRef .tc main_v13) = rootsOf (degreeOf (targets (V (Proc.devRef .tc main_arg1)))) := by
  after_results_simp
  rfl

set_option maxHeartbeats 2000000 in
/-- The first stretch leaves the zero scalar. -/
theorem readA_zero (V : Valuation τ sig (Elt Ideal)) :
    after (stretchA (F := Ideal)) V (Proc.devRef .tc main_cst_2) = constant (F := Ideal) S_ .f32 0x00000000#32 := by
  after_results_simp

set_option maxHeartbeats 2000000 in
/-- The called selection leaves the guarded inverse roots of what it finds. -/
theorem readB_guarded (V : Valuation τ sig (Elt Ideal)) :
    after (stretchB (F := Ideal)) V (Proc.devRef .tc main_v14) = guardedOf (V (Proc.devRef .tc main_v12)) (V (Proc.devRef .tc main_v13)) (V (Proc.devRef .tc main_cst_2)) := by
  after_results_simp
  rfl

/-- The called selection does not write the source endpoints. -/
theorem keepB_sources (V : Valuation τ sig (Elt Ideal)) : after (stretchB (F := Ideal)) V (Proc.devRef .tc main_v3) = V (Proc.devRef .tc main_v3) :=
  after_of_forall_not_mem _ _ (List.forall_iff_forall_mem.mp (by
      simp only [stretchB, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The called selection does not write the target endpoints. -/
theorem keepB_targets (V : Valuation τ sig (Elt Ideal)) : after (stretchB (F := Ideal)) V (Proc.devRef .tc main_v6) = V (Proc.devRef .tc main_v6) :=
  after_of_forall_not_mem _ _ (List.forall_iff_forall_mem.mp (by
      simp only [stretchB, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

set_option maxHeartbeats 2000000 in
/-- The third stretch leaves the edge weights of the endpoints and guarded roots it finds. -/
theorem readC_weight (V : Valuation τ sig (Elt Ideal)) :
    after (stretchC (F := Ideal)) V (Proc.devRef .tc main_v29) = weightOf (V (Proc.devRef .tc main_v14)) (V (Proc.devRef .tc main_v3)) (V (Proc.devRef .tc main_v6)) := by
  after_results_simp
  rfl

/-- The third stretch does not write the source endpoints. -/
theorem keepC_sources (V : Valuation τ sig (Elt Ideal)) : after (stretchC (F := Ideal)) V (Proc.devRef .tc main_v3) = V (Proc.devRef .tc main_v3) :=
  after_of_forall_not_mem _ _ (List.forall_iff_forall_mem.mp (by
      simp only [stretchC, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The third stretch does not write the target endpoints. -/
theorem keepC_targets (V : Valuation τ sig (Elt Ideal)) : after (stretchC (F := Ideal)) V (Proc.devRef .tc main_v6) = V (Proc.devRef .tc main_v6) :=
  after_of_forall_not_mem _ _ (List.forall_iff_forall_mem.mp (by
      simp only [stretchC, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

set_option maxHeartbeats 2000000 in
/-- The fourth stretch leaves the biased aggregation of the product of the features and first weights it finds. -/
theorem readD_biased (V : Valuation τ sig (Elt Ideal)) :
    after (stretchD (F := Ideal)) V (Proc.devRef .tc main_v46) = addf (aggregateOf (V (Proc.devRef .tc main_v3)) (V (Proc.devRef .tc main_v6)) (V (Proc.devRef .tc main_v29))
        (Host.dotGeneral (F := Ideal) (φ₁ := .f32) (φ₂ := .f32) dot_S100000x256_S256x128_S100000x128_1_0_0_1_n_n none (V (Proc.devRef .tc main_arg0)) (V (Proc.devRef .tc main_arg2))))
      (broadcastInDim S100000x128 ![0, 1] bcast_S1x128_S100000x128_0_1 (broadcastInDim S1x128 ![1] bcast_S128_S1x128_1 (V (Proc.devRef .tc main_arg3)))) := by
  after_results_simp
  rfl

/-- The fourth stretch does not write the source endpoints. -/
theorem keepD_sources (V : Valuation τ sig (Elt Ideal)) : after (stretchD (F := Ideal)) V (Proc.devRef .tc main_v3) = V (Proc.devRef .tc main_v3) :=
  after_of_forall_not_mem _ _ (List.forall_iff_forall_mem.mp (by
      simp only [stretchD, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The fourth stretch does not write the target endpoints. -/
theorem keepD_targets (V : Valuation τ sig (Elt Ideal)) : after (stretchD (F := Ideal)) V (Proc.devRef .tc main_v6) = V (Proc.devRef .tc main_v6) :=
  after_of_forall_not_mem _ _ (List.forall_iff_forall_mem.mp (by
      simp only [stretchD, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The fourth stretch does not write the edge weights. -/
theorem keepD_weight (V : Valuation τ sig (Elt Ideal)) : after (stretchD (F := Ideal)) V (Proc.devRef .tc main_v29) = V (Proc.devRef .tc main_v29) :=
  after_of_forall_not_mem _ _ (List.forall_iff_forall_mem.mp (by
      simp only [stretchD, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

set_option maxHeartbeats 2000000 in
/-- The called rectifier leaves the maximum of what it finds with zero. -/
theorem readE_rectified (V : Valuation τ sig (Elt Ideal)) :
    after (stretchE (F := Ideal)) V (Proc.devRef .tc main_v47) = maximumf (V (Proc.devRef .tc main_v46)) (broadcastInDim S100000x128 ![] bcast_S_S100000x128 (constant (F := Ideal) S_ .f32 0x00000000#32)) := by
  after_results_simp
  rfl

/-- The called rectifier does not write the source endpoints. -/
theorem keepE_sources (V : Valuation τ sig (Elt Ideal)) : after (stretchE (F := Ideal)) V (Proc.devRef .tc main_v3) = V (Proc.devRef .tc main_v3) :=
  after_of_forall_not_mem _ _ (List.forall_iff_forall_mem.mp (by
      simp only [stretchE, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The called rectifier does not write the target endpoints. -/
theorem keepE_targets (V : Valuation τ sig (Elt Ideal)) : after (stretchE (F := Ideal)) V (Proc.devRef .tc main_v6) = V (Proc.devRef .tc main_v6) :=
  after_of_forall_not_mem _ _ (List.forall_iff_forall_mem.mp (by
      simp only [stretchE, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The called rectifier does not write the edge weights. -/
theorem keepE_weight (V : Valuation τ sig (Elt Ideal)) : after (stretchE (F := Ideal)) V (Proc.devRef .tc main_v29) = V (Proc.devRef .tc main_v29) :=
  after_of_forall_not_mem _ _ (List.forall_iff_forall_mem.mp (by
      simp only [stretchE, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

set_option maxHeartbeats 2000000 in
/-- The sixth stretch leaves the mean head of what it finds. -/
theorem readF_mean (V : Valuation τ sig (Elt Ideal)) :
    after (stretchF (F := Ideal)) V (Proc.devRef .tc main_v64) = latentOf (V (Proc.devRef .tc main_v3)) (V (Proc.devRef .tc main_v6)) (V (Proc.devRef .tc main_v29)) (V (Proc.devRef .tc main_v47)) (V (Proc.devRef .tc main_arg4)) (V (Proc.devRef .tc main_arg5)) := by
  after_results_simp
  rfl

/-- The sixth stretch does not write the source endpoints. -/
theorem keepF_sources (V : Valuation τ sig (Elt Ideal)) : after (stretchF (F := Ideal)) V (Proc.devRef .tc main_v3) = V (Proc.devRef .tc main_v3) :=
  after_of_forall_not_mem _ _ (List.forall_iff_forall_mem.mp (by
      simp only [stretchF, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The sixth stretch does not write the target endpoints. -/
theorem keepF_targets (V : Valuation τ sig (Elt Ideal)) : after (stretchF (F := Ideal)) V (Proc.devRef .tc main_v6) = V (Proc.devRef .tc main_v6) :=
  after_of_forall_not_mem _ _ (List.forall_iff_forall_mem.mp (by
      simp only [stretchF, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The sixth stretch does not write the edge weights. -/
theorem keepF_weight (V : Valuation τ sig (Elt Ideal)) : after (stretchF (F := Ideal)) V (Proc.devRef .tc main_v29) = V (Proc.devRef .tc main_v29) :=
  after_of_forall_not_mem _ _ (List.forall_iff_forall_mem.mp (by
      simp only [stretchF, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The sixth stretch does not write the hidden layer. -/
theorem keepF_hidden (V : Valuation τ sig (Elt Ideal)) : after (stretchF (F := Ideal)) V (Proc.devRef .tc main_v47) = V (Proc.devRef .tc main_v47) :=
  after_of_forall_not_mem _ _ (List.forall_iff_forall_mem.mp (by
      simp only [stretchF, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

set_option maxHeartbeats 2000000 in
/-- The seventh stretch leaves the log standard deviation head of what it finds. -/
theorem readG_logdev (V : Valuation τ sig (Elt Ideal)) :
    after (stretchG (F := Ideal)) V (Proc.devRef .tc main_v81) = latentOf (V (Proc.devRef .tc main_v3)) (V (Proc.devRef .tc main_v6)) (V (Proc.devRef .tc main_v29)) (V (Proc.devRef .tc main_v47)) (V (Proc.devRef .tc main_arg6)) (V (Proc.devRef .tc main_arg7)) := by
  after_results_simp
  rfl

/-- The seventh stretch does not write the mean. -/
theorem keepG_mean (V : Valuation τ sig (Elt Ideal)) : after (stretchG (F := Ideal)) V (Proc.devRef .tc main_v64) = V (Proc.devRef .tc main_v64) :=
  after_of_forall_not_mem _ _ (List.forall_iff_forall_mem.mp (by
      simp only [stretchG, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

set_option maxHeartbeats 2000000 in
/-- The last stretch leaves the sample of what it finds. -/
theorem readH_sample (V : Valuation τ sig (Elt Ideal)) :
    after (stretchH (F := Ideal)) V (Proc.devRef .tc main_v84) = sampled (V (Proc.devRef .tc main_v64)) (V (Proc.devRef .tc main_v81)) (V (Proc.devRef .tc main_arg8)) := by
  after_results_simp
  rfl

/-- The last stretch does not write the mean. -/
theorem keepH_mean (V : Valuation τ sig (Elt Ideal)) : after (stretchH (F := Ideal)) V (Proc.devRef .tc main_v64) = V (Proc.devRef .tc main_v64) :=
  after_of_forall_not_mem _ _ (List.forall_iff_forall_mem.mp (by
      simp only [stretchH, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- The last stretch does not write the log standard deviation. -/
theorem keepH_logdev (V : Valuation τ sig (Elt Ideal)) : after (stretchH (F := Ideal)) V (Proc.devRef .tc main_v81) = V (Proc.devRef .tc main_v81) :=
  after_of_forall_not_mem _ _ (List.forall_iff_forall_mem.mp (by
      simp only [stretchH, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-! ## The arguments are never written -/

/-- No operation of this prefix writes argument 0. -/
theorem preC_arg0 (V : Valuation τ sig (Elt Ideal)) : after (preC (F := Ideal)) V (Proc.devRef .tc main_arg0) = V (Proc.devRef .tc main_arg0) :=
  after_of_forall_not_mem _ _ (List.forall_iff_forall_mem.mp (by
      simp only [preC, stretchA, stretchB, stretchC, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 2. -/
theorem preC_arg2 (V : Valuation τ sig (Elt Ideal)) : after (preC (F := Ideal)) V (Proc.devRef .tc main_arg2) = V (Proc.devRef .tc main_arg2) :=
  after_of_forall_not_mem _ _ (List.forall_iff_forall_mem.mp (by
      simp only [preC, stretchA, stretchB, stretchC, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 3. -/
theorem preC_arg3 (V : Valuation τ sig (Elt Ideal)) : after (preC (F := Ideal)) V (Proc.devRef .tc main_arg3) = V (Proc.devRef .tc main_arg3) :=
  after_of_forall_not_mem _ _ (List.forall_iff_forall_mem.mp (by
      simp only [preC, stretchA, stretchB, stretchC, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 4. -/
theorem preE_arg4 (V : Valuation τ sig (Elt Ideal)) : after (preE (F := Ideal)) V (Proc.devRef .tc main_arg4) = V (Proc.devRef .tc main_arg4) :=
  after_of_forall_not_mem _ _ (List.forall_iff_forall_mem.mp (by
      simp only [preE, preD, preC, stretchA, stretchB, stretchC, stretchD, stretchE, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 5. -/
theorem preE_arg5 (V : Valuation τ sig (Elt Ideal)) : after (preE (F := Ideal)) V (Proc.devRef .tc main_arg5) = V (Proc.devRef .tc main_arg5) :=
  after_of_forall_not_mem _ _ (List.forall_iff_forall_mem.mp (by
      simp only [preE, preD, preC, stretchA, stretchB, stretchC, stretchD, stretchE, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 6. -/
theorem preF_arg6 (V : Valuation τ sig (Elt Ideal)) : after (preF (F := Ideal)) V (Proc.devRef .tc main_arg6) = V (Proc.devRef .tc main_arg6) :=
  after_of_forall_not_mem _ _ (List.forall_iff_forall_mem.mp (by
      simp only [preF, preE, preD, preC, stretchA, stretchB, stretchC, stretchD, stretchE, stretchF, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 7. -/
theorem preF_arg7 (V : Valuation τ sig (Elt Ideal)) : after (preF (F := Ideal)) V (Proc.devRef .tc main_arg7) = V (Proc.devRef .tc main_arg7) :=
  after_of_forall_not_mem _ _ (List.forall_iff_forall_mem.mp (by
      simp only [preF, preE, preD, preC, stretchA, stretchB, stretchC, stretchD, stretchE, stretchF, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

/-- No operation of this prefix writes argument 8. -/
theorem preG_arg8 (V : Valuation τ sig (Elt Ideal)) : after (preG (F := Ideal)) V (Proc.devRef .tc main_arg8) = V (Proc.devRef .tc main_arg8) :=
  after_of_forall_not_mem _ _ (List.forall_iff_forall_mem.mp (by
      simp only [preG, preF, preE, preD, preC, stretchA, stretchB, stretchC, stretchD, stretchE, stretchF, stretchG, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))

variable (m : (ℓ : Loc nD τ sig) → Buf (Elt Ideal) ℓ) (c : Dev nD)

/-! ## The composition -/

/-- The source endpoints after the first three stretches. -/
theorem atC_sources : after (preC (F := Ideal)) (launchContents m c) (Proc.devRef .tc main_v3) = sources (m ((c.tc : Thread nD τ).loc main_arg1)) := by
  show after ((stretchA (F := Ideal)) ++ stretchB ++ stretchC) (launchContents m c) _ = _
  rw [after_append, after_append, keepC_sources, keepB_sources, readA_sources]

/-- The target endpoints after the first three stretches. -/
theorem atC_targets : after (preC (F := Ideal)) (launchContents m c) (Proc.devRef .tc main_v6) = targets (m ((c.tc : Thread nD τ).loc main_arg1)) := by
  show after ((stretchA (F := Ideal)) ++ stretchB ++ stretchC) (launchContents m c) _ = _
  rw [after_append, after_append, keepC_targets, keepB_targets, readA_targets]

/-- The edge weights after the first three stretches. -/
theorem atC_weight : after (preC (F := Ideal)) (launchContents m c) (Proc.devRef .tc main_v29) = weight (m ((c.tc : Thread nD τ).loc main_arg1)) := by
  show after ((stretchA (F := Ideal)) ++ stretchB ++ stretchC) (launchContents m c) _ = _
  rw [after_append, after_append, readC_weight, readB_guarded, keepB_sources, keepB_targets, readA_positive, readA_roots,
    readA_zero, readA_sources, readA_targets]
  rfl

theorem atD_sources : after (preD (F := Ideal)) (launchContents m c) (Proc.devRef .tc main_v3) = sources (m ((c.tc : Thread nD τ).loc main_arg1)) := by
  show after ((preC (F := Ideal)) ++ stretchD) (launchContents m c) _ = _
  rw [after_append, keepD_sources, atC_sources]

theorem atD_targets : after (preD (F := Ideal)) (launchContents m c) (Proc.devRef .tc main_v6) = targets (m ((c.tc : Thread nD τ).loc main_arg1)) := by
  show after ((preC (F := Ideal)) ++ stretchD) (launchContents m c) _ = _
  rw [after_append, keepD_targets, atC_targets]

theorem atD_weight : after (preD (F := Ideal)) (launchContents m c) (Proc.devRef .tc main_v29) = weight (m ((c.tc : Thread nD τ).loc main_arg1)) := by
  show after ((preC (F := Ideal)) ++ stretchD) (launchContents m c) _ = _
  rw [after_append, keepD_weight, atC_weight]

/-- The hidden layer after the rectifier. -/
theorem atE_hidden : after (preE (F := Ideal)) (launchContents m c) (Proc.devRef .tc main_v47) = hidden (m ((c.tc : Thread nD τ).loc main_arg0)) (m ((c.tc : Thread nD τ).loc main_arg1)) (m ((c.tc : Thread nD τ).loc main_arg2)) (m ((c.tc : Thread nD τ).loc main_arg3)) := by
  show after ((preC (F := Ideal)) ++ stretchD ++ stretchE) (launchContents m c) _ = _
  rw [after_append, after_append, readE_rectified, readD_biased, atC_sources, atC_targets, atC_weight, preC_arg0, preC_arg2, preC_arg3]
  rfl

theorem atE_sources : after (preE (F := Ideal)) (launchContents m c) (Proc.devRef .tc main_v3) = sources (m ((c.tc : Thread nD τ).loc main_arg1)) := by
  show after ((preD (F := Ideal)) ++ stretchE) (launchContents m c) _ = _
  rw [after_append, keepE_sources, atD_sources]

theorem atE_targets : after (preE (F := Ideal)) (launchContents m c) (Proc.devRef .tc main_v6) = targets (m ((c.tc : Thread nD τ).loc main_arg1)) := by
  show after ((preD (F := Ideal)) ++ stretchE) (launchContents m c) _ = _
  rw [after_append, keepE_targets, atD_targets]

theorem atE_weight : after (preE (F := Ideal)) (launchContents m c) (Proc.devRef .tc main_v29) = weight (m ((c.tc : Thread nD τ).loc main_arg1)) := by
  show after ((preD (F := Ideal)) ++ stretchE) (launchContents m c) _ = _
  rw [after_append, keepE_weight, atD_weight]

/-- The mean after the sixth stretch. -/
theorem atF_mean : after (preF (F := Ideal)) (launchContents m c) (Proc.devRef .tc main_v64) = latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := by
  show after ((preE (F := Ideal)) ++ stretchF) (launchContents m c) _ = _
  rw [after_append, readF_mean, atE_sources, atE_targets, atE_weight, atE_hidden, preE_arg4, preE_arg5]
  rfl

theorem atF_sources : after (preF (F := Ideal)) (launchContents m c) (Proc.devRef .tc main_v3) = sources (m ((c.tc : Thread nD τ).loc main_arg1)) := by
  show after ((preE (F := Ideal)) ++ stretchF) (launchContents m c) _ = _
  rw [after_append, keepF_sources, atE_sources]

theorem atF_targets : after (preF (F := Ideal)) (launchContents m c) (Proc.devRef .tc main_v6) = targets (m ((c.tc : Thread nD τ).loc main_arg1)) := by
  show after ((preE (F := Ideal)) ++ stretchF) (launchContents m c) _ = _
  rw [after_append, keepF_targets, atE_targets]

theorem atF_weight : after (preF (F := Ideal)) (launchContents m c) (Proc.devRef .tc main_v29) = weight (m ((c.tc : Thread nD τ).loc main_arg1)) := by
  show after ((preE (F := Ideal)) ++ stretchF) (launchContents m c) _ = _
  rw [after_append, keepF_weight, atE_weight]

theorem atF_hidden : after (preF (F := Ideal)) (launchContents m c) (Proc.devRef .tc main_v47) = hidden (m ((c.tc : Thread nD τ).loc main_arg0)) (m ((c.tc : Thread nD τ).loc main_arg1)) (m ((c.tc : Thread nD τ).loc main_arg2)) (m ((c.tc : Thread nD τ).loc main_arg3)) := by
  show after ((preE (F := Ideal)) ++ stretchF) (launchContents m c) _ = _
  rw [after_append, keepF_hidden, atE_hidden]

/-- The log standard deviation after the seventh stretch. -/
theorem atG_logdev : after (preG (F := Ideal)) (launchContents m c) (Proc.devRef .tc main_v81) = latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7)) := by
  show after ((preF (F := Ideal)) ++ stretchG) (launchContents m c) _ = _
  rw [after_append, readG_logdev, atF_sources, atF_targets, atF_weight, atF_hidden, preF_arg6, preF_arg7]
  rfl

theorem atG_mean : after (preG (F := Ideal)) (launchContents m c) (Proc.devRef .tc main_v64) = latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := by
  show after ((preF (F := Ideal)) ++ stretchG) (launchContents m c) _ = _
  rw [after_append, keepG_mean, atF_mean]

/-! ## The three results -/

/-- The mean the run ends with. -/
theorem mean_value : after (ops (F := Ideal)) (launchContents m c) (Proc.devRef .tc main_v64) = latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := by
  rw [ops_split (F := Ideal), after_append, keepH_mean, atG_mean]

/-- The log standard deviation the run ends with. -/
theorem logdev_value : after (ops (F := Ideal)) (launchContents m c) (Proc.devRef .tc main_v81) = latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7)) := by
  rw [ops_split (F := Ideal), after_append, keepH_logdev, atG_logdev]

/-- The sample the run ends with. -/
theorem sample_value : after (ops (F := Ideal)) (launchContents m c) (Proc.devRef .tc main_v84)
    = sampled (latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5))) (latent (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))) (m ((c.tc : Thread nD τ).loc main_arg8)) := by
  rw [ops_split (F := Ideal), after_append, readH_sample, atG_mean, atG_logdev, preG_arg8]

/-! ## The arguments end as launched -/

/-- Argument 0 ends as launched. -/
theorem arg0_kept : after (ops (F := Ideal)) (launchContents m c) (Proc.devRef .tc main_arg0) = (m ((c.tc : Thread nD τ).loc main_arg0)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 1 ends as launched. -/
theorem arg1_kept : after (ops (F := Ideal)) (launchContents m c) (Proc.devRef .tc main_arg1) = (m ((c.tc : Thread nD τ).loc main_arg1)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 2 ends as launched. -/
theorem arg2_kept : after (ops (F := Ideal)) (launchContents m c) (Proc.devRef .tc main_arg2) = (m ((c.tc : Thread nD τ).loc main_arg2)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 3 ends as launched. -/
theorem arg3_kept : after (ops (F := Ideal)) (launchContents m c) (Proc.devRef .tc main_arg3) = (m ((c.tc : Thread nD τ).loc main_arg3)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 4 ends as launched. -/
theorem arg4_kept : after (ops (F := Ideal)) (launchContents m c) (Proc.devRef .tc main_arg4) = (m ((c.tc : Thread nD τ).loc main_arg4)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 5 ends as launched. -/
theorem arg5_kept : after (ops (F := Ideal)) (launchContents m c) (Proc.devRef .tc main_arg5) = (m ((c.tc : Thread nD τ).loc main_arg5)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 6 ends as launched. -/
theorem arg6_kept : after (ops (F := Ideal)) (launchContents m c) (Proc.devRef .tc main_arg6) = (m ((c.tc : Thread nD τ).loc main_arg6)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 7 ends as launched. -/
theorem arg7_kept : after (ops (F := Ideal)) (launchContents m c) (Proc.devRef .tc main_arg7) = (m ((c.tc : Thread nD τ).loc main_arg7)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

/-- Argument 8 ends as launched. -/
theorem arg8_kept : after (ops (F := Ideal)) (launchContents m c) (Proc.devRef .tc main_arg8) = (m ((c.tc : Thread nD τ).loc main_arg8)) :=
  (after_of_forall_not_mem _ _ (List.forall_iff_forall_mem.mp (by
      simp only [ops, List.append_nil, List.cons_append,
        List.nil_append, List.Forall, nullary_writes, unary_writes, binary_writes, ternary_writes, quaternary_writes, reshape_writes, binaryIndexed_writes, Finset.mem_singleton]
      repeat' apply And.intro
      all_goals exact devRef_ne_of_ne (by decide)))).trans rfl

end Cert.ReferenceIdeal.HandRun

end
-- ==== Proof.lean ====
/-
  The certificate of a graph-convolution variational encoder: a kernel of four tiled regions among host
  gather / scatter stretches, against a plain reference.

  Both programs normalise the graph the same way (self-loops, degrees, inverse root degrees, edge weights) and
  both compute the hidden layer as the rectified, biased aggregation of `x · W1`; the kernel does the product and
  the bias-and-rectifier block by block. For the two latent heads the reference multiplies the hidden layer by
  each weight matrix and aggregates each 64-column product; the kernel joins the two matrices side by side,
  multiplies once, aggregates the 128-column product once, and splits the result. Read over the extended reals
  each side is, at every entry, the same finite sum (Proof/Bridge.lean), so the three results agree. The frames
  are the generated frames of the two kernel programs and the reference's run with its results dropped; the
  idealization rewrote nothing, so there is nothing to preserve.
-/
import proofs.«116371_j44220983280296_2_alg».proof.Defs
import proofs.«116371_j44220983280296_2_alg».proof.Proof.Gen.Kernel
import proofs.«116371_j44220983280296_2_alg».proof.Proof.Gen.Kernel.Skeleton
import proofs.«116371_j44220983280296_2_alg».proof.Proof.Gen.Kernel.Launch
import proofs.«116371_j44220983280296_2_alg».proof.Proof.Gen.Kernel.Points
import proofs.«116371_j44220983280296_2_alg».proof.Proof.Gen.Kernel.Frame
import proofs.«116371_j44220983280296_2_alg».proof.Proof.Gen.KernelIdeal
import proofs.«116371_j44220983280296_2_alg».proof.Proof.Gen.KernelIdeal.Skeleton
import proofs.«116371_j44220983280296_2_alg».proof.Proof.Gen.KernelIdeal.Launch
import proofs.«116371_j44220983280296_2_alg».proof.Proof.Gen.KernelIdeal.Points
import proofs.«116371_j44220983280296_2_alg».proof.Proof.Gen.KernelIdeal.Frame
import proofs.«116371_j44220983280296_2_alg».proof.Proof.Gen.ReferenceIdeal
import proofs.«116371_j44220983280296_2_alg».proof.Proof.Gen.Pre_finite_inputs
import proofs.«116371_j44220983280296_2_alg».proof.Proof.KernelRun
import proofs.«116371_j44220983280296_2_alg».proof.Proof.KernelStages
import proofs.«116371_j44220983280296_2_alg».proof.Proof.Bridge
import proofs.«116371_j44220983280296_2_alg».proof.Proof.ReferenceRun
import proofs.«116371_j44220983280296_2_alg».proof.Proof.ReferenceValue
import Idealize.ShloMosaic.Adequacy
import Idealize.ShloMosaic.Init

set_option maxRecDepth 16384

noncomputable section

namespace Cert.Proof

open Idealize.ShloMosaic Idealize.SL.Sem Cert.GraphLayers

/-- The word-level kernel runs and leaves its arguments alone. -/
theorem frame_kernel : Cert.frame_Kernel := fun m ρ _ => Cert.Kernel.Gen.frame m ρ

/-- The idealized kernel runs and leaves its arguments alone. -/
theorem frame_kernel_ideal : Cert.frame_KernelIdeal := fun m ρ _ => Cert.KernelIdeal.Gen.frame m ρ

/-- The reference runs and leaves its arguments alone: its run, with the results dropped. -/
theorem frame_reference : Cert.frame_ReferenceIdeal := fun m ρ _ =>
  (θ_run Cert.ReferenceIdeal.defs _ _).mono (fun _ h c =>
    ⟨(h c _).trans (Cert.ReferenceIdeal.HandRun.arg0_kept m c),
     (h c _).trans (Cert.ReferenceIdeal.HandRun.arg1_kept m c),
     (h c _).trans (Cert.ReferenceIdeal.HandRun.arg2_kept m c),
     (h c _).trans (Cert.ReferenceIdeal.HandRun.arg3_kept m c),
     (h c _).trans (Cert.ReferenceIdeal.HandRun.arg4_kept m c),
     (h c _).trans (Cert.ReferenceIdeal.HandRun.arg5_kept m c),
     (h c _).trans (Cert.ReferenceIdeal.HandRun.arg6_kept m c),
     (h c _).trans (Cert.ReferenceIdeal.HandRun.arg7_kept m c),
     (h c _).trans (Cert.ReferenceIdeal.HandRun.arg8_kept m c)⟩)
    (Cert.ReferenceIdeal.HandRun.run_fold (F := Ideal) m ρ)

/-- The idealization rewrote no operation. -/
theorem preserves : Cert.preserves_Kernel_KernelIdeal := trivial

section Outputs

variable (m : (ℓ : Loc Cert.KernelIdeal.nD Cert.KernelIdeal.τ Cert.KernelIdeal.sig) → Buf (Elt Ideal) ℓ) (c : Dev Cert.KernelIdeal.nD)

/-- The encoder's hidden layer of a memory's argument arrays. -/
def hiddenAt : FVec Ideal Cert.ReferenceIdeal.S100000x128 .f32 := hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
/-- The encoder's mean of a memory's argument arrays. -/
def meanAt : FVec Ideal Cert.ReferenceIdeal.S100000x64 .f32 := latent (m ((c.tc : Thread Cert.KernelIdeal.nD Cert.KernelIdeal.τ).loc Cert.KernelIdeal.main_arg1)) (hiddenAt m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
/-- The encoder's log standard deviation of a memory's argument arrays. -/
def logdevAt : FVec Ideal Cert.ReferenceIdeal.S100000x64 .f32 := latent (m ((c.tc : Thread Cert.KernelIdeal.nD Cert.KernelIdeal.τ).loc Cert.KernelIdeal.main_arg1)) (hiddenAt m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
/-- The encoder's sample of a memory's argument arrays. -/
def sampleAt : FVec Ideal Cert.ReferenceIdeal.S100000x64 .f32 := sampled (meanAt m c) (logdevAt m c) (m ((c.tc : Thread Cert.KernelIdeal.nD Cert.KernelIdeal.τ).loc Cert.KernelIdeal.main_arg8))

end Outputs

/-- At Ideal the two programs, from memories that agree on the arguments, both end with the sample, the mean and
    the log standard deviation of the encoder: the kernel by its regions' laws, the fold of its run and the
    bridge; the reference by the fold of its run. -/
theorem algebraic : Cert.algebraic_KernelIdeal_ReferenceIdeal := by
  intro m ρ m' ρ' _ hagree
  refine ⟨fun c => sampleAt m c, fun c => meanAt m c, fun c => logdevAt m c, ?_, ?_⟩
  · refine (θ_run Cert.KernelIdeal.defs _ _).mono (fun r h c => ⟨?_, ?_, ?_, (h c).2.2.2⟩) (Cert.KernelIdeal.Fold.run_named (F := Ideal) m ρ)
    · exact (h c).1.trans ((Cert.KernelIdeal.Stages.sample_array m ρ c).trans (Cert.Bridge.sample_eq _ _ _ _ _ _ _ _ _ _ _))
    · exact (h c).2.1.trans ((Cert.KernelIdeal.Stages.mean_array m ρ c).trans (Cert.Bridge.mean_eq _ _ _ _ _ _ _ _))
    · exact (h c).2.2.1.trans ((Cert.KernelIdeal.Stages.logdev_array m ρ c).trans (Cert.Bridge.logdev_eq _ _ _ _ _ _ _ _))
  · refine (θ_run Cert.ReferenceIdeal.defs _ _).mono (fun r h c => ?_) (Cert.ReferenceIdeal.HandRun.run_fold (F := Ideal) m' ρ')
    obtain ⟨e0, e1, e2, e3, e4, e5, e6, e7, e8⟩ := hagree c
    refine ⟨?_, ?_, ?_,
      (h c _).trans (Cert.ReferenceIdeal.HandRun.arg0_kept m' c), (h c _).trans (Cert.ReferenceIdeal.HandRun.arg1_kept m' c),
      (h c _).trans (Cert.ReferenceIdeal.HandRun.arg2_kept m' c), (h c _).trans (Cert.ReferenceIdeal.HandRun.arg3_kept m' c),
      (h c _).trans (Cert.ReferenceIdeal.HandRun.arg4_kept m' c), (h c _).trans (Cert.ReferenceIdeal.HandRun.arg5_kept m' c),
      (h c _).trans (Cert.ReferenceIdeal.HandRun.arg6_kept m' c), (h c _).trans (Cert.ReferenceIdeal.HandRun.arg7_kept m' c),
      (h c _).trans (Cert.ReferenceIdeal.HandRun.arg8_kept m' c)⟩
    · refine (h c _).trans ((Cert.ReferenceIdeal.HandRun.sample_value m' c).trans ?_)
      rw [e0, e1, e2, e3, e4, e5, e6, e7, e8]
      rfl
    · refine (h c _).trans ((Cert.ReferenceIdeal.HandRun.mean_value m' c).trans ?_)
      rw [e0, e1, e2, e3, e4, e5]
      rfl
    · refine (h c _).trans ((Cert.ReferenceIdeal.HandRun.logdev_value m' c).trans ?_)
      rw [e0, e1, e2, e3, e6, e7]
      rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
